-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x32 : Shape := ⟨2, ![4096, 32]⟩
abbrev S32x4096 : Shape := ⟨2, ![32, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_arg4 : FVec F S32x4096 .f32) (main_arg5 : FVec F S4096x32 .f32) (main_arg6 : FVec F S32x4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S32x4096 .f32 := Host.absf main_arg4
  let main_cst_6 : FVec F S_ .f32 := constant S_ .f32 0x7F800000#32
  let main_v20 : FVec F S32x4096 .f32 := broadcastInDim S32x4096 ![] bcast_S_S32x4096 main_cst_6
  let main_v21 : IVec S32x4096 1 := cmpf .olt main_v19 main_v20
  let main_c_7 : IVec S_ 1 := constantI S_ 1 1#1
  let main_v22 : IVec S_ 1 := (fun x v => Host.reduce IntOp.andi x v reducesTo_S32x4096_S_d0_1 h_S_) main_v21 main_c_7
  let main_v23 : IVec S_ 1 := andi main_v18 main_v22
  let main_v24 : FVec F S4096x32 .f32 := Host.absf main_arg5
  let main_cst_8 : FVec F S_ .f32 := constant S_ .f32 0x7F800000#32
  let main_v25 : FVec F S4096x32 .f32 := broadcastInDim S4096x32 ![] bcast_S_S4096x32 main_cst_8
  let main_v26 : IVec S4096x32 1 := cmpf .olt main_v24 main_v25
  let main_c_9 : IVec S_ 1 := constantI S_ 1 1#1
  let main_v27 : IVec S_ 1 := (fun x v => Host.reduce IntOp.andi x v reducesTo_S4096x32_S_d0_1 h_S_) main_v26 main_c_9
  let main_v28 : IVec S_ 1 := andi main_v23 main_v27
  let main_v29 : FVec F S32x4096 .f32 := Host.absf main_arg6
  let main_cst_10 : FVec F S_ .f32 := constant S_ .f32 0x7F800000#32
  let main_v30 : FVec F S32x4096 .f32 := broadcastInDim S32x4096 ![] bcast_S_S32x4096 main_cst_10
  let main_v31 : IVec S32x4096 1 := cmpf .olt main_v29 main_v30
  let main_c_11 : IVec S_ 1 := constantI S_ 1 1#1
  let main_v32 : IVec S_ 1 := (fun x v => Host.reduce IntOp.andi x v reducesTo_S32x4096_S_d0_1 h_S_) main_v31 main_c_11
  let main_v33 : IVec S_ 1 := andi main_v28 main_v32
  main_v33

def fn {F : FTy → Type} [FloatOps F] (main_arg0 : FVec F S4x4096x4096 .f32) (main_arg1 : FVec F S4096x4096 .f32) (main_arg2 : FVec F S4096 .f32) (main_arg3 : FVec F S4096x32 .f32) (main_arg4 : FVec F S32x4096 .f32) (main_arg5 : FVec F S4096x32 .f32) (main_arg6 : FVec F S32x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_arg5 main_arg6 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x32 : Shape := ⟨2, ![4096, 32]⟩
abbrev S32x4096 : Shape := ⟨2, ![32, 4096]⟩
abbrev S1024x1024 : Shape := ⟨2, ![1024, 1024]⟩
abbrev S1024x32 : Shape := ⟨2, ![1024, 32]⟩
abbrev S32x1024 : Shape := ⟨2, ![32, 1024]⟩
abbrev S16384x4096 : Shape := ⟨2, ![16384, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 12
  | .vmem => 21
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x32, .f32⟩
  | .hbm, ⟨4, _⟩ => ⟨S32x4096, .f32⟩
  | .hbm, ⟨5, _⟩ => ⟨S4096x32, .f32⟩
  | .hbm, ⟨6, _⟩ => ⟨S32x4096, .f32⟩
  | .hbm, ⟨7, _⟩ => ⟨S4096x4096, .bf16⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x32, .f32⟩
  | .local _ .vmem, ⟨3, _⟩ => ⟨S1024x32, .f32⟩
  | .local _ .vmem, ⟨4, _⟩ => ⟨S32x1024, .f32⟩
  | .local _ .vmem, ⟨5, _⟩ => ⟨S32x1024, .f32⟩
  | .local _ .vmem, ⟨6, _⟩ => ⟨S1024x32, .f32⟩
  | .local _ .vmem, ⟨7, _⟩ => ⟨S1024x32, .f32⟩
  | .local _ .vmem, ⟨8, _⟩ => ⟨S32x1024, .f32⟩
  | .local _ .vmem, ⟨9, _⟩ => ⟨S32x1024, .f32⟩
  | .local _ .vmem, ⟨10, _⟩ => ⟨S1024x1024, .bf16⟩
  | .local _ .vmem, ⟨11, _⟩ => ⟨S1024x1024, .bf16⟩
  | .local _ .vmem, ⟨12, _⟩ => ⟨S2048x512, .f32⟩
  | .local _ .vmem, ⟨13, _⟩ => ⟨S2048x512, .f32⟩
  | .local _ .vmem, ⟨14, _⟩ => ⟨S1024x512, .bf16⟩
  | .local _ .vmem, ⟨15, _⟩ => ⟨S1024x512, .bf16⟩
  | .local _ .vmem, ⟨16, _⟩ => ⟨S1x1024, .f32⟩
  | .local _ .vmem, ⟨17, _⟩ => ⟨S1x1024, .f32⟩
  | .local _ .vmem, ⟨18, _⟩ => ⟨S2048x1024, .f32⟩
  | .local _ .vmem, ⟨19, _⟩ => ⟨S2048x1024, .f32⟩
  | .local _ .vmem, ⟨20, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x32_S1024x32_0_0 : ∀ a, (![0, 0] : Fin 2 → Nat) a + S1024x32.size a ≤ S1024x32.size a
  h_S1024x32 : 0 < S1024x32.numel
  bitsLt_bf16_f32 : FTy.bits .bf16 < FTy.bits .f32
  inb_S32x1024_S32x1024_0_0 : ∀ a, (![0, 0] : Fin 2 → Nat) a + S32x1024.size a ≤ S32x1024.size a
  h_S32x1024 : 0 < S32x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S4x4096x4096_S16384x4096 : S4x4096x4096.ShapeCasts S16384x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x4096_S4x4096x4096 : S16384x4096.ShapeCasts S4x4096x4096
  dot_S1024x32_S32x1024_S1024x1024_1_0_0_1_n_n_wf : DotDims.WF S1024x32 S32x1024 S1024x1024 [1] [0] [0] [1] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S4096x32.size a
  hwx0_1 : ∀ i : grid0.Coords, EltTy.bits .f32 = 32 ∨ (Rect.block (s := S4096x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x4096.size a
  hwx0_2 : ∀ i : grid0.Coords, EltTy.bits .f32 = 32 ∨ (Rect.block (s := S32x4096) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S4096x32.size a
  hwx0_3 : ∀ i : grid0.Coords, EltTy.bits .f32 = 32 ∨ (Rect.block (s := S4096x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x4096.size a
  hwx0_4 : ∀ i : grid0.Coords, EltTy.bits .f32 = 32 ∨ (Rect.block (s := S32x4096) S32x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .bf16 = 32 ∨ (Rect.block (s := S4096x4096) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x4096.size a
  hwx1_0 : ∀ i : grid1.Coords, EltTy.bits .f32 = 32 ∨ (Rect.block (s := S16384x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S16384x4096.size a
  hwx1_3 : ∀ i : grid1.Coords, EltTy.bits .f32 = 32 ∨ (Rect.block (s := S16384x4096) S2048x1024.size (cc1_transform_3 i) (hinb1_3 i)).WholeWords (EltTy.packing .f32)

variable [Facts₀]

def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x32 : Shape := ⟨2, ![4096, 32]⟩
abbrev S32x4096 : Shape := ⟨2, ![32, 4096]⟩
abbrev S_ : Shape := ⟨0, ![]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x32, .f32⟩
  | .hbm, ⟨4, _⟩ => ⟨S32x4096, .f32⟩
  | .hbm, ⟨5, _⟩ => ⟨S4096x32, .f32⟩
  | .hbm, ⟨6, _⟩ => ⟨S32x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4096x32_S32x4096_S4096x4096_1_0_0_1_n_n_wf : DotDims.WF S4096x32 S32x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.KReg0.lean ====
/-
  The weight kernel's region, at any buffer contents `V` found on entry.

  The grid has 4 × 4 points; point (o, i) reads block (o, i) of the base weight, row block o of the two left factors and
  column block i of the two right factors, and writes block (o, i) of the merged weight. The body loads its five input
  blocks whole, computes one value from them and stores it over the whole output block; nothing is kept between points.
  So after the body the output's staging buffer holds one covering store's value of the five input blocks, each input
  buffer still holds its block, and the region's invariant is only "the other scoped buffers and the generator register
  are somewhere". This module states those contents, runs the body once on symbolic buffers, and packages the result as
  the pipeline's proof data and body obligation.
-/
import proofs.«117358_j3753801417310_2_alg».proof.Proof.Gen.Kernel.Launch
import proofs.«117358_j3753801417310_2_alg».proof.Proof.Gen.Kernel.Skeleton
import proofs.«117358_j3753801417310_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: an unfetched window's block
    index has not moved since the point before. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body's loads and its store go through. -/
abbrev rW : Rect S1024x1024 := Rect.unit (s := S1024x1024) ![0, 0] S1024x1024.size inb_S1024x1024_S1024x1024_0_0
abbrev rA : Rect S1024x32 := Rect.unit (s := S1024x32) ![0, 0] S1024x32.size inb_S1024x32_S1024x32_0_0
abbrev rB : Rect S32x1024 := Rect.unit (s := S32x1024) ![0, 0] S32x1024.size inb_S32x1024_S32x1024_0_0

/-- The output window's staging buffer after the body, from the five input blocks: the one store's value laid over the
    buffer (base weight block `x0`, left factors `x1`, `x3`, right factors `x2`, `x4`). -/
def out0_5 (x0 : Vec F S1024x1024 .f32) (x1 : Vec F S1024x32 .f32) (x2 : Vec F S32x1024 .f32) (x3 : Vec F S1024x32 .f32)
    (x4 : Vec F S32x1024 .f32) : Vec F S1024x1024 .bf16 :=
  View.canon [⟨rW, k0_pay1 (View.ld x1 rA) (View.ld x2 rB) (View.ld x3 rA) (View.ld x4 rB) (View.ld x0 rW)⟩]

/-- The one store covers the buffer. -/
theorem cover0_5 (p0 : rW.shape.Idx → Elt F .bf16) (y : S1024x1024.Idx) :
    ∃ pc ∈ ([⟨rW, p0⟩] : List (View.Piece (Elt F) S1024x1024 .bf16)), y ∈ pc.1.set :=
  View.cover_of_tiled [⟨rW, p0⟩] S1024x1024.size (by rfl) y

set_option maxHeartbeats 1000000 in
/-- The body on whole staging buffers — the inputs' at contents `x0 … x4`, the output's at anything — runs to the
    continuation holding the inputs as they were and the output at `out0_5` of them. -/
theorem sound_kernel0 (c : Dev nD) (E : Set ℕ) (i : grid0.Coords)
    (arg2 : Memref sig .tc .vmem S1024x1024 .f32) (harg2 : arg2.IsWhole) (arg3 : Memref sig .tc .vmem S1024x32 .f32) (harg3 : arg3.IsWhole)
    (arg4 : Memref sig .tc .vmem S32x1024 .f32) (harg4 : arg4.IsWhole) (arg5 : Memref sig .tc .vmem S1024x32 .f32) (harg5 : arg5.IsWhole)
    (arg6 : Memref sig .tc .vmem S32x1024 .f32) (harg6 : arg6.IsWhole) (arg7 : Memref sig .tc .vmem S1024x1024 .bf16) (harg7 : arg7.IsWhole)
    (x0 : Vec F S1024x1024 .f32) (x1 : Vec F S1024x32 .f32) (x2 : Vec F S32x1024 .f32) (x3 : Vec F S1024x32 .f32) (x4 : Vec F S32x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__weight_kernel i arg2 harg2 arg3 harg3 arg4 harg4 arg5 harg5 arg6 harg6 arg7 harg7) K := by
  simp only [cc0__weight_kernel_eq_skeleton]; unfold cc0__weight_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The region's proof data on core `c`: the arrays as found; each input buffer at its block and the output buffer at
    `out0_5` of the blocks after every point; the invariant "the rest is somewhere"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the run above applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KReg1Run.lean ====
/-
  The matmul kernel's region, at any buffer contents `V` found on entry.

  The grid has 8 × 4 × 8 points (row block, column block, contraction block), the contraction block innermost. At the
  first contraction block of a (row, column) pair the body zeroes its scratch accumulator; at every point it adds the
  product of the point's input blocks to the accumulator; at the last contraction block it stores accumulator plus bias
  into the output block, which the pipeline writes back there and nowhere else. So the scratch is carried from point to
  point, and the output's staging buffer is idle at seven points of every eight. Three control cases occur: A (first
  block: zero, then add), B (add), C (last block: add, then store the output). This module decides the two conditions
  over the grid, runs the body once per case on symbolic buffers, states by recursion on the point what the output buffer
  and the scratch hold after each point, and packages that as the pipeline's proof data and body obligation, with the
  invariant "the scratch holds what the point before left in it".
-/
import proofs.«117358_j3753801417310_2_alg».proof.Proof.Gen.Kernel.Launch
import proofs.«117358_j3753801417310_2_alg».proof.Proof.Gen.Kernel.Skeleton
import proofs.«117358_j3753801417310_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first contraction block": the body's first condition, from the grid coordinates. -/
abbrev cond1_0 (i : grid1.Coords) : Prop := (Scalar.cmpi .ne (Scalar.extui (Scalar.cmpi .eq (BitVec.ofNat 32 (i 2).val) 0#32)) 0#32) = 1#1
/-- It holds at the points whose number is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last contraction block": the body's second condition. -/
abbrev cond1_1 (i : grid1.Coords) : Prop := k1_cond2 i = 1#1
/-- It holds at the points whose number is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last contraction block nothing is stored into the output's buffer and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last contraction block the output's buffer is live. -/
theorem liveAt1_3 : ∀ t : Fin cfg1.N, cond1_1 (grid1.coords t) → cfg1.idle 3 (grid1.coords t) = false := by decide +kernel

/-! ## The buffers the body is called on -/

/-- One staging buffer of the output window, through which its contents are stated (the choice does not matter). -/
abbrev VO1_3 : View sig .tc .vmem S2048x1024 .f32 := (Memref.whole cc1_stg3_0 : Memref sig .tc .vmem S2048x1024 .f32).view
abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The scratch accumulator: a whole scoped buffer of the kernel's own. -/
abbrev scM1 : Memref sig .tc .vmem S2048x1024 .f32 := Memref.whole cc1_scratch0
abbrev VS1 : View sig .tc .vmem S2048x1024 .f32 := scM1.view

/-- The scoped buffers that are neither this region's staging buffers nor its scratch (the weight kernel's staging
    buffers), each at some contents, followed by `X` — what is said of the scratch. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ X)

theorem restWith_mono (c : Dev nD) {X Y : sProp 𝕄} (h : X ⊢ Y) : restWith (F := F) c X ⊢ restWith c Y := by
  unfold restWith
  iintro ⟨R0, R1, R2, R3, R4, R5, R6, R7, R8, R9, R10, R11, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iapply h; iexact HX

/-- The region's entry invariant, with the scratch as a buffer owned at some contents. -/
theorem PhiA1_eq (c : Dev nD) :
    (Pipeline.ΦA spec1 c : sProp 𝕄)
      = iprop(restWith c (iprop(∃ d, owns (c : Thread nD τ) scM1 fullShare d)) ∗ (∃ r, prngReg c r)) := by
  unfold Pipeline.ΦA restWith; rw [scopedRest1_eq]; simp only [scM1, owns_whole]; try rfl

/-! ## The body run once per case -/

set_option maxHeartbeats 1000000 in
/-- Case A (first contraction block, not the last): on whole buffers — the three inputs at `x0 x1 x2`, the output's at
    `xi3` and handed back untouched, the scratch at anything — the body runs to the continuation with the scratch
    holding the pieces it stored. -/
noncomputable def kernelRun1_A (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .f32) (x1 : Vec F S1024x512 .bf16) (x2 : Vec F S1x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B (neither the first nor the last contraction block): the same, the scratch at the contents `xs0` the point
    before left. -/
noncomputable def kernelRun1_B (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .f32) (x1 : Vec F S1024x512 .bf16) (x2 : Vec F S1x1024 .f32) (xs0 : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C (the last contraction block): the output's buffer at anything in, with the pieces the body stored out. -/
noncomputable def kernelRun1_C (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .f32) (x1 : Vec F S1024x512 .bf16) (x2 : Vec F S1x1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Region1

end Cert.Kernel.Fr

end
-- ==== Proof.KReg1.lean ====
/-
  The matmul kernel's region, continued: what the output's staging buffer and the scratch accumulator hold after each
  point, by recursion on the point over the three cases' stores; the invariant carrying the accumulator from point to
  point; the pipeline's proof data; and the body obligation, a case split on the point's number modulo 8.
-/
import proofs.«117358_j3753801417310_2_alg».proof.Proof.KReg1Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The other scoped buffers alone. -/
def restOnly (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

theorem restWith_split (c : Dev nD) (X : sProp 𝕄) : restWith (F := F) c X ⊢ iprop(restOnly c ∗ X) := by
  unfold restWith restOnly
  iintro ⟨R0, R1, R2, R3, R4, R5, R6, R7, R8, R9, R10, R11, HX⟩
  isplitr [HX]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact HX

theorem restWith_join (c : Dev nD) (X : sProp 𝕄) : iprop(restOnly c ∗ X) ⊢ restWith (F := F) c X := by
  unfold restWith restOnly
  iintro ⟨⟨R0, R1, R2, R3, R4, R5, R6, R7, R8, R9, R10, R11⟩, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HX

/-! ## What each case leaves -/

/-- Case A stores nothing into the output's buffer: a placeholder nothing consults (the window is idle there). -/
def out1_A_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x512 .f32) (x1 : Vec F S1024x512 .bf16) (x2 : Vec F S1x1024 .f32) : Vec F S2048x1024 .f32 :=
  VO1_3.read (Elt F) (VO1_3.writes (Elt F) VO1_3.junk (kernelRun1_A c i arg3 harg3 arg4 harg4 arg5 harg5 arg6 harg6 arg7 harg7 hc0 hc1 x0 x1 x2).1)
/-- Case A's stores cover the scratch. -/
theorem scover1_A (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x512 .f32) (x1 : Vec F S1024x512 .bf16) (x2 : Vec F S1x1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y
/-- What case A leaves in the scratch. -/
def sout1_A (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x512 .f32) (x1 : Vec F S1024x512 .bf16) (x2 : Vec F S1x1024 .f32) : Vec F S2048x1024 .f32 :=
  VS1.read (Elt F) (VS1.writes (Elt F) VS1.junk (kernelRun1_A c i arg3 harg3 arg4 harg4 arg5 harg5 arg6 harg6 arg7 harg7 hc0 hc1 x0 x1 x2).2.1)

def out1_B_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x512 .f32) (x1 : Vec F S1024x512 .bf16) (x2 : Vec F S1x1024 .f32) (xs0 : Vec F S2048x1024 .f32) : Vec F S2048x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x512 .f32) (x1 : Vec F S1024x512 .bf16) (x2 : Vec F S1x1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y
def sout1_B (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x512 .f32) (x1 : Vec F S1024x512 .bf16) (x2 : Vec F S1x1024 .f32) (xs0 : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs0).2.1)

/-- Case C's store covers the output's buffer. -/
theorem cover1_C_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x512 .f32) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y
/-- What case C leaves in the output's buffer. -/
def out1_C_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x512 .f32) (x1 : Vec F S1024x512 .bf16) (x2 : Vec F S1x1024 .f32) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x512 .f32) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y
def sout1_C (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x512 .f32) (x1 : Vec F S1024x512 .bf16) (x2 : Vec F S1x1024 .f32) (xs0 : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs0).2.1)

/-! ## The accumulation, point by point -/

/-- What the output's staging buffer (first component) and the scratch (second) hold after the body at point `n`: the
    case the point's number selects, run on the point's buffers and input blocks, over the scratch the point before left. -/
def outsAt1 (c : Dev nD) : (n : ℕ) → n < cfg1.N → Vec F S2048x1024 .f32 × Vec F S2048x1024 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A. -/
theorem outsAt1_A (c : Dev nD) (t : Fin cfg1.N) (h0 : t.val % 8 = 0) (h1 : ¬t.val % 8 = 7) :
    outsAt1 V c t.val t.isLt =
      (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
       sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- `outsAt1` at a point of case B, over what the point before left. -/
theorem outsAt1_B (c : Dev nD) (t : Fin cfg1.N) (h0 : ¬t.val % 8 = 0) (h1 : ¬t.val % 8 = 7) :
    outsAt1 V c t.val t.isLt =
      (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
       sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C, over what the point before left. -/
theorem outsAt1_C (c : Dev nD) (t : Fin cfg1.N) (h0 : ¬t.val % 8 = 0) (h1 : t.val % 8 = 7) :
    outsAt1 V c t.val t.isLt =
      (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: the scoped rest at anything and the generator register somewhere. Afterwards: the same with
    the scratch at what the point before left in it. -/
def PhiS (c : Dev nD) : (n : ℕ) → n ≤ cfg1.N → sProp 𝕄
  | 0, _ => Pipeline.ΦA spec1 c
  | n + 1, hn => iprop(restWith c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(restWith c (owns (c : Thread nD τ) scM1 fullShare ((outsAt1 V c (n - 1) (by omega)).2)) ∗ (∃ r, prngReg c r)) := by
  cases n with
  | zero => exact absurd rfl hz
  | succ n => rfl

/-! ## The proof data -/

/-- The region's proof data on core `c`: the arrays as found; after the body at point `t` each input buffer at its
    block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
/-- The body at any point. The inputs' buffers hold their blocks; the point's number modulo 8 says which case it is in;
    the invariant hands the body the scratch at what the point before left (at anything before the first point) and takes
    it back at this point's contents; away from the last contraction block the output's buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      iintro ⟨⟨HR, Hg⟩, Ho, ⟨%d0, H0⟩, ⟨%d1, H1⟩, ⟨%d2, H2⟩, ⟨%d3, H3⟩⟩
      ihave HR' := (restWith_split c _) $$ HR
      icases HR' with ⟨HRest, HS0⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HRest Hg]
      · isplitl [HS0 HRest]
        · iapply (restWith_join c _)
          isplitl [HRest]; · iexact HRest
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_split c _) $$ HR
      icases HR' with ⟨HRest, HS0⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HRest Hg]
      · isplitl [HS0 HRest]
        · iapply (restWith_join c _)
          isplitl [HRest]; · iexact HRest
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_split c _) $$ HR
      icases HR' with ⟨HRest, HS0⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HRest Hg]
      · isplitl [HS0 HRest]
        · iapply (restWith_join c _)
          isplitl [HRest]; · iexact HRest
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_split c _) $$ HR
      icases HR' with ⟨HRest, HS0⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HRest Hg]
      · isplitl [HS0 HRest]
        · iapply (restWith_join c _)
          isplitl [HRest]; · iexact HRest
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the entry invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  refine sep_mono (restWith_mono c ?_) .rfl
  iintro H; iexists _; iexact H

theorem hout1 (c : Dev nD) : (dat1 V c).Φ (Fin.last cfg1.N) ⊢ Pipeline.ΦA spec1 c :=
  Phi_out1 V c _ (by rw [Fin.val_last]; have : cfg1.N = 256 := N_1; omega)

end Region1

end Cert.Kernel.Fr

end
-- ==== Proof.KRun.lean ====
/-
  The whole program's run: the weight kernel's region, two reshapes on the host, the matmul kernel's region, one reshape.

  Between two items every unscoped buffer of a core is held whole at named contents — the launch memory, then each
  region's arrays at what its write-backs leave and each host stretch's results at the operations' values — beside the
  generator register somewhere and nothing owed. Each region is entered from that state (its arrays split out of the
  unscoped buffers, the register and the scoped buffers handed to the region's invariant) and left at the next one.
  The run's post says every unscoped buffer ends at the last named contents; the frame claim reads the seven argument
  arrays off it, which no item writes.
-/
import proofs.«117358_j3753801417310_2_alg».proof.Proof.KReg0
import proofs.«117358_j3753801417310_2_alg».proof.Proof.KReg1
import proofs.«117358_j3753801417310_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item boundary -/

/-- Core `c`'s buffers at launch (the weight kernel's entry). -/
abbrev W0 : Dev nD → Valuation τ sig (Elt F) := fun c b => m ((c : Dev nD), b)
abbrev VA : (c : Dev nD) → (b : Ref sig .tc) → Buf (Elt F) ((c : Thread nD τ).loc b) := fun c b => W0 m c b
/-- After the weight kernel: its arrays at what the write-backs leave, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VA' : (c : Dev nD) → (b : Ref sig .tc) → Buf (Elt F) ((c : Thread nD τ).loc b) := fun c b => W1 m c b
theorem hF0 (c : Dev nD) (w : Fin cfg0.W) : (dat0 (VA m) c).arrAt w cfg0.N = VA' m c (Pipeline.arrRef spec0 w) :=
  (W1_arr m c w).symm
theorem hrest0 (c : Dev nD) : ∀ b, b ∉ Finset.univ.image (Pipeline.arrRef spec0) → VA' m c b = VA m c b :=
  fun b hb => W1_of_ne m c b fun w e => hb (Finset.mem_image.mpr ⟨w, Finset.mem_univ _, e⟩)

/-- After the two reshapes (the matmul kernel's entry). -/
abbrev W2 : Dev nD → Valuation τ sig (Elt F) := fun c => StableHlo.after hostOps1 (W1 m c)
abbrev VB : (c : Dev nD) → (b : Ref sig .tc) → Buf (Elt F) ((c : Thread nD τ).loc b) := fun c b => W2 m c b
/-- After the matmul kernel. -/
def W3 (c : Dev nD) : Valuation τ sig (Elt F) :=
  Pipeline.withArrays spec1 c (W2 m c) fun w => (dat1 (VB m) c).arrAt w cfg1.N
theorem W3_arr (c : Dev nD) (w : Fin cfg1.W) :
    W3 m c (Proc.devRef .tc (Pipeline.arrRef spec1 w)) = (dat1 (VB m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VB' : (c : Dev nD) → (b : Ref sig .tc) → Buf (Elt F) ((c : Thread nD τ).loc b) := fun c b => W3 m c b
theorem hF1 (c : Dev nD) (w : Fin cfg1.W) : (dat1 (VB m) c).arrAt w cfg1.N = VB' m c (Pipeline.arrRef spec1 w) :=
  (W3_arr m c w).symm
theorem hrest1 (c : Dev nD) : ∀ b, b ∉ Finset.univ.image (Pipeline.arrRef spec1) → VB' m c b = VB m c b :=
  fun b hb => W3_of_ne m c b fun w e => hb (Finset.mem_image.mpr ⟨w, Finset.mem_univ _, e⟩)
/-- After the last reshape: the end. -/
abbrev W4 : Dev nD → Valuation τ sig (Elt F) := fun c => StableHlo.after hostOps2 (W3 m c)

/-! ### No item writes an argument array -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := (W1_arr m c 0).trans (((dat0 (VA m) c).arrAt_in 0 rfl _).trans (A_eq0 (VA m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := StableHlo.after_of_writes_sub hostOps1 _ hostOps1_writes (r := main_arg2) (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := StableHlo.after_of_writes_sub hostOps1 _ hostOps1_writes (r := main_arg3) (by decide)
    _ = W0 m c (Proc.devRef .tc main_arg3) := (W1_arr m c 1).trans (((dat0 (VA m) c).arrAt_in 1 rfl _).trans (A_eq0 (VA m) c 1))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := StableHlo.after_of_writes_sub hostOps1 _ hostOps1_writes (r := main_arg4) (by decide)
    _ = W0 m c (Proc.devRef .tc main_arg4) := (W1_arr m c 2).trans (((dat0 (VA m) c).arrAt_in 2 rfl _).trans (A_eq0 (VA m) c 2))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := StableHlo.after_of_writes_sub hostOps1 _ hostOps1_writes (r := main_arg5) (by decide)
    _ = W0 m c (Proc.devRef .tc main_arg5) := (W1_arr m c 3).trans (((dat0 (VA m) c).arrAt_in 3 rfl _).trans (A_eq0 (VA m) c 3))
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := StableHlo.after_of_writes_sub hostOps1 _ hostOps1_writes (r := main_arg6) (by decide)
    _ = W0 m c (Proc.devRef .tc main_arg6) := (W1_arr m c 4).trans (((dat0 (VA m) c).arrAt_in 4 rfl _).trans (A_eq0 (VA m) c 4))
    _ = m ((c : Thread nD τ).loc main_arg6) := rfl

/-! ## The proof data family and the thread state -/

/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register somewhere, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the register somewhere. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The weight kernel's region: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VA' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul kernel's region: entered from every unscoped buffer at `W2`, left at `W3`; the scratch accumulator lives
    inside the region's invariant and is forgotten at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h1.trans (hin1 (VB m) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (VB m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VB' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every unscoped buffer ends at the final named contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run m ρ)

end Cert.Kernel.Fr

end
-- ==== Proof.KiReg0.lean ====
/-
  The weight kernel's region, at any buffer contents `V` found on entry.

  The grid has 4 × 4 points; point (o, i) reads block (o, i) of the base weight, row block o of the two left factors and
  column block i of the two right factors, and writes block (o, i) of the merged weight. The body loads its five input
  blocks whole, computes one value from them and stores it over the whole output block; nothing is kept between points.
  So after the body the output's staging buffer holds one covering store's value of the five input blocks, each input
  buffer still holds its block, and the region's invariant is only "the other scoped buffers and the generator register
  are somewhere". This module states those contents, runs the body once on symbolic buffers, and packages the result as
  the pipeline's proof data and body obligation.
-/
import proofs.«117358_j3753801417310_2_alg».proof.Proof.Gen.KernelIdeal.Launch
import proofs.«117358_j3753801417310_2_alg».proof.Proof.Gen.KernelIdeal.Skeleton
import proofs.«117358_j3753801417310_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: an unfetched window's block
    index has not moved since the point before. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body's loads and its store go through. -/
abbrev rW : Rect S1024x1024 := Rect.unit (s := S1024x1024) ![0, 0] S1024x1024.size inb_S1024x1024_S1024x1024_0_0
abbrev rA : Rect S1024x32 := Rect.unit (s := S1024x32) ![0, 0] S1024x32.size inb_S1024x32_S1024x32_0_0
abbrev rB : Rect S32x1024 := Rect.unit (s := S32x1024) ![0, 0] S32x1024.size inb_S32x1024_S32x1024_0_0

/-- The output window's staging buffer after the body, from the five input blocks: the one store's value laid over the
    buffer (base weight block `x0`, left factors `x1`, `x3`, right factors `x2`, `x4`). -/
def out0_5 (x0 : Vec F S1024x1024 .f32) (x1 : Vec F S1024x32 .f32) (x2 : Vec F S32x1024 .f32) (x3 : Vec F S1024x32 .f32)
    (x4 : Vec F S32x1024 .f32) : Vec F S1024x1024 .bf16 :=
  View.canon [⟨rW, k0_pay1 (View.ld x1 rA) (View.ld x2 rB) (View.ld x3 rA) (View.ld x4 rB) (View.ld x0 rW)⟩]

/-- The one store covers the buffer. -/
theorem cover0_5 (p0 : rW.shape.Idx → Elt F .bf16) (y : S1024x1024.Idx) :
    ∃ pc ∈ ([⟨rW, p0⟩] : List (View.Piece (Elt F) S1024x1024 .bf16)), y ∈ pc.1.set :=
  View.cover_of_tiled [⟨rW, p0⟩] S1024x1024.size (by rfl) y

set_option maxHeartbeats 1000000 in
/-- The body on whole staging buffers — the inputs' at contents `x0 … x4`, the output's at anything — runs to the
    continuation holding the inputs as they were and the output at `out0_5` of them. -/
theorem sound_kernel0 (c : Dev nD) (E : Set ℕ) (i : grid0.Coords)
    (arg2 : Memref sig .tc .vmem S1024x1024 .f32) (harg2 : arg2.IsWhole) (arg3 : Memref sig .tc .vmem S1024x32 .f32) (harg3 : arg3.IsWhole)
    (arg4 : Memref sig .tc .vmem S32x1024 .f32) (harg4 : arg4.IsWhole) (arg5 : Memref sig .tc .vmem S1024x32 .f32) (harg5 : arg5.IsWhole)
    (arg6 : Memref sig .tc .vmem S32x1024 .f32) (harg6 : arg6.IsWhole) (arg7 : Memref sig .tc .vmem S1024x1024 .bf16) (harg7 : arg7.IsWhole)
    (x0 : Vec F S1024x1024 .f32) (x1 : Vec F S1024x32 .f32) (x2 : Vec F S32x1024 .f32) (x3 : Vec F S1024x32 .f32) (x4 : Vec F S32x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__weight_kernel i arg2 harg2 arg3 harg3 arg4 harg4 arg5 harg5 arg6 harg6 arg7 harg7) K := by
  simp only [cc0__weight_kernel_eq_skeleton]; unfold cc0__weight_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The region's proof data on core `c`: the arrays as found; each input buffer at its block and the output buffer at
    `out0_5` of the blocks after every point; the invariant "the rest is somewhere"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the run above applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KiReg1Run.lean ====
/-
  The matmul kernel's region, at any buffer contents `V` found on entry.

  The grid has 8 × 4 × 8 points (row block, column block, contraction block), the contraction block innermost. At the
  first contraction block of a (row, column) pair the body zeroes its scratch accumulator; at every point it adds the
  product of the point's input blocks to the accumulator; at the last contraction block it stores accumulator plus bias
  into the output block, which the pipeline writes back there and nowhere else. So the scratch is carried from point to
  point, and the output's staging buffer is idle at seven points of every eight. Three control cases occur: A (first
  block: zero, then add), B (add), C (last block: add, then store the output). This module decides the two conditions
  over the grid, runs the body once per case on symbolic buffers, states by recursion on the point what the output buffer
  and the scratch hold after each point, and packages that as the pipeline's proof data and body obligation, with the
  invariant "the scratch holds what the point before left in it".
-/
import proofs.«117358_j3753801417310_2_alg».proof.Proof.Gen.KernelIdeal.Launch
import proofs.«117358_j3753801417310_2_alg».proof.Proof.Gen.KernelIdeal.Skeleton
import proofs.«117358_j3753801417310_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first contraction block": the body's first condition, from the grid coordinates. -/
abbrev cond1_0 (i : grid1.Coords) : Prop := (Scalar.cmpi .ne (Scalar.extui (Scalar.cmpi .eq (BitVec.ofNat 32 (i 2).val) 0#32)) 0#32) = 1#1
/-- It holds at the points whose number is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last contraction block": the body's second condition. -/
abbrev cond1_1 (i : grid1.Coords) : Prop := k1_cond2 i = 1#1
/-- It holds at the points whose number is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last contraction block nothing is stored into the output's buffer and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last contraction block the output's buffer is live. -/
theorem liveAt1_3 : ∀ t : Fin cfg1.N, cond1_1 (grid1.coords t) → cfg1.idle 3 (grid1.coords t) = false := by decide +kernel

/-! ## The buffers the body is called on -/

/-- One staging buffer of the output window, through which its contents are stated (the choice does not matter). -/
abbrev VO1_3 : View sig .tc .vmem S2048x1024 .f32 := (Memref.whole cc1_stg3_0 : Memref sig .tc .vmem S2048x1024 .f32).view
abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The scratch accumulator: a whole scoped buffer of the kernel's own. -/
abbrev scM1 : Memref sig .tc .vmem S2048x1024 .f32 := Memref.whole cc1_scratch0
abbrev VS1 : View sig .tc .vmem S2048x1024 .f32 := scM1.view

/-- The scoped buffers that are neither this region's staging buffers nor its scratch (the weight kernel's staging
    buffers), each at some contents, followed by `X` — what is said of the scratch. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ X)

theorem restWith_mono (c : Dev nD) {X Y : sProp 𝕄} (h : X ⊢ Y) : restWith (F := F) c X ⊢ restWith c Y := by
  unfold restWith
  iintro ⟨R0, R1, R2, R3, R4, R5, R6, R7, R8, R9, R10, R11, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iapply h; iexact HX

/-- The region's entry invariant, with the scratch as a buffer owned at some contents. -/
theorem PhiA1_eq (c : Dev nD) :
    (Pipeline.ΦA spec1 c : sProp 𝕄)
      = iprop(restWith c (iprop(∃ d, owns (c : Thread nD τ) scM1 fullShare d)) ∗ (∃ r, prngReg c r)) := by
  unfold Pipeline.ΦA restWith; rw [scopedRest1_eq]; simp only [scM1, owns_whole]; try rfl

/-! ## The body run once per case -/

set_option maxHeartbeats 1000000 in
/-- Case A (first contraction block, not the last): on whole buffers — the three inputs at `x0 x1 x2`, the output's at
    `xi3` and handed back untouched, the scratch at anything — the body runs to the continuation with the scratch
    holding the pieces it stored. -/
noncomputable def kernelRun1_A (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .f32) (x1 : Vec F S1024x512 .bf16) (x2 : Vec F S1x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B (neither the first nor the last contraction block): the same, the scratch at the contents `xs0` the point
    before left. -/
noncomputable def kernelRun1_B (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .f32) (x1 : Vec F S1024x512 .bf16) (x2 : Vec F S1x1024 .f32) (xs0 : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C (the last contraction block): the output's buffer at anything in, with the pieces the body stored out. -/
noncomputable def kernelRun1_C (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .f32) (x1 : Vec F S1024x512 .bf16) (x2 : Vec F S1x1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Region1

end Cert.KernelIdeal.Fr

end
-- ==== Proof.KiReg1.lean ====
/-
  The matmul kernel's region, continued: what the output's staging buffer and the scratch accumulator hold after each
  point, by recursion on the point over the three cases' stores; the invariant carrying the accumulator from point to
  point; the pipeline's proof data; and the body obligation, a case split on the point's number modulo 8.
-/
import proofs.«117358_j3753801417310_2_alg».proof.Proof.KiReg1Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The other scoped buffers alone. -/
def restOnly (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

theorem restWith_split (c : Dev nD) (X : sProp 𝕄) : restWith (F := F) c X ⊢ iprop(restOnly c ∗ X) := by
  unfold restWith restOnly
  iintro ⟨R0, R1, R2, R3, R4, R5, R6, R7, R8, R9, R10, R11, HX⟩
  isplitr [HX]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact HX

theorem restWith_join (c : Dev nD) (X : sProp 𝕄) : iprop(restOnly c ∗ X) ⊢ restWith (F := F) c X := by
  unfold restWith restOnly
  iintro ⟨⟨R0, R1, R2, R3, R4, R5, R6, R7, R8, R9, R10, R11⟩, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HX

/-! ## What each case leaves -/

/-- Case A stores nothing into the output's buffer: a placeholder nothing consults (the window is idle there). -/
def out1_A_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x512 .f32) (x1 : Vec F S1024x512 .bf16) (x2 : Vec F S1x1024 .f32) : Vec F S2048x1024 .f32 :=
  VO1_3.read (Elt F) (VO1_3.writes (Elt F) VO1_3.junk (kernelRun1_A c i arg3 harg3 arg4 harg4 arg5 harg5 arg6 harg6 arg7 harg7 hc0 hc1 x0 x1 x2).1)
/-- Case A's stores cover the scratch. -/
theorem scover1_A (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x512 .f32) (x1 : Vec F S1024x512 .bf16) (x2 : Vec F S1x1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y
/-- What case A leaves in the scratch. -/
def sout1_A (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x512 .f32) (x1 : Vec F S1024x512 .bf16) (x2 : Vec F S1x1024 .f32) : Vec F S2048x1024 .f32 :=
  VS1.read (Elt F) (VS1.writes (Elt F) VS1.junk (kernelRun1_A c i arg3 harg3 arg4 harg4 arg5 harg5 arg6 harg6 arg7 harg7 hc0 hc1 x0 x1 x2).2.1)

def out1_B_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x512 .f32) (x1 : Vec F S1024x512 .bf16) (x2 : Vec F S1x1024 .f32) (xs0 : Vec F S2048x1024 .f32) : Vec F S2048x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x512 .f32) (x1 : Vec F S1024x512 .bf16) (x2 : Vec F S1x1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y
def sout1_B (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x512 .f32) (x1 : Vec F S1024x512 .bf16) (x2 : Vec F S1x1024 .f32) (xs0 : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs0).2.1)

/-- Case C's store covers the output's buffer. -/
theorem cover1_C_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x512 .f32) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y
/-- What case C leaves in the output's buffer. -/
def out1_C_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x512 .f32) (x1 : Vec F S1024x512 .bf16) (x2 : Vec F S1x1024 .f32) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x512 .f32) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y
def sout1_C (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x512 .f32) (x1 : Vec F S1024x512 .bf16) (x2 : Vec F S1x1024 .f32) (xs0 : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs0).2.1)

/-! ## The accumulation, point by point -/

/-- What the output's staging buffer (first component) and the scratch (second) hold after the body at point `n`: the
    case the point's number selects, run on the point's buffers and input blocks, over the scratch the point before left. -/
def outsAt1 (c : Dev nD) : (n : ℕ) → n < cfg1.N → Vec F S2048x1024 .f32 × Vec F S2048x1024 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A. -/
theorem outsAt1_A (c : Dev nD) (t : Fin cfg1.N) (h0 : t.val % 8 = 0) (h1 : ¬t.val % 8 = 7) :
    outsAt1 V c t.val t.isLt =
      (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
       sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- `outsAt1` at a point of case B, over what the point before left. -/
theorem outsAt1_B (c : Dev nD) (t : Fin cfg1.N) (h0 : ¬t.val % 8 = 0) (h1 : ¬t.val % 8 = 7) :
    outsAt1 V c t.val t.isLt =
      (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
       sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C, over what the point before left. -/
theorem outsAt1_C (c : Dev nD) (t : Fin cfg1.N) (h0 : ¬t.val % 8 = 0) (h1 : t.val % 8 = 7) :
    outsAt1 V c t.val t.isLt =
      (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: the scoped rest at anything and the generator register somewhere. Afterwards: the same with
    the scratch at what the point before left in it. -/
def PhiS (c : Dev nD) : (n : ℕ) → n ≤ cfg1.N → sProp 𝕄
  | 0, _ => Pipeline.ΦA spec1 c
  | n + 1, hn => iprop(restWith c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(restWith c (owns (c : Thread nD τ) scM1 fullShare ((outsAt1 V c (n - 1) (by omega)).2)) ∗ (∃ r, prngReg c r)) := by
  cases n with
  | zero => exact absurd rfl hz
  | succ n => rfl

/-! ## The proof data -/

/-- The region's proof data on core `c`: the arrays as found; after the body at point `t` each input buffer at its
    block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
/-- The body at any point. The inputs' buffers hold their blocks; the point's number modulo 8 says which case it is in;
    the invariant hands the body the scratch at what the point before left (at anything before the first point) and takes
    it back at this point's contents; away from the last contraction block the output's buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      iintro ⟨⟨HR, Hg⟩, Ho, ⟨%d0, H0⟩, ⟨%d1, H1⟩, ⟨%d2, H2⟩, ⟨%d3, H3⟩⟩
      ihave HR' := (restWith_split c _) $$ HR
      icases HR' with ⟨HRest, HS0⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HRest Hg]
      · isplitl [HS0 HRest]
        · iapply (restWith_join c _)
          isplitl [HRest]; · iexact HRest
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_split c _) $$ HR
      icases HR' with ⟨HRest, HS0⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HRest Hg]
      · isplitl [HS0 HRest]
        · iapply (restWith_join c _)
          isplitl [HRest]; · iexact HRest
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_split c _) $$ HR
      icases HR' with ⟨HRest, HS0⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HRest Hg]
      · isplitl [HS0 HRest]
        · iapply (restWith_join c _)
          isplitl [HRest]; · iexact HRest
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_split c _) $$ HR
      icases HR' with ⟨HRest, HS0⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HRest Hg]
      · isplitl [HS0 HRest]
        · iapply (restWith_join c _)
          isplitl [HRest]; · iexact HRest
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the entry invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  refine sep_mono (restWith_mono c ?_) .rfl
  iintro H; iexists _; iexact H

theorem hout1 (c : Dev nD) : (dat1 V c).Φ (Fin.last cfg1.N) ⊢ Pipeline.ΦA spec1 c :=
  Phi_out1 V c _ (by rw [Fin.val_last]; have : cfg1.N = 256 := N_1; omega)

end Region1

end Cert.KernelIdeal.Fr

end
-- ==== Proof.KiRun.lean ====
/-
  The whole program's run: the weight kernel's region, two reshapes on the host, the matmul kernel's region, one reshape.

  Between two items every unscoped buffer of a core is held whole at named contents — the launch memory, then each
  region's arrays at what its write-backs leave and each host stretch's results at the operations' values — beside the
  generator register somewhere and nothing owed. Each region is entered from that state (its arrays split out of the
  unscoped buffers, the register and the scoped buffers handed to the region's invariant) and left at the next one.
  The run's post says every unscoped buffer ends at the last named contents; the frame claim reads the seven argument
  arrays off it, which no item writes.
-/
import proofs.«117358_j3753801417310_2_alg».proof.Proof.KiReg0
import proofs.«117358_j3753801417310_2_alg».proof.Proof.KiReg1
import proofs.«117358_j3753801417310_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item boundary -/

/-- Core `c`'s buffers at launch (the weight kernel's entry). -/
abbrev W0 : Dev nD → Valuation τ sig (Elt F) := fun c b => m ((c : Dev nD), b)
abbrev VA : (c : Dev nD) → (b : Ref sig .tc) → Buf (Elt F) ((c : Thread nD τ).loc b) := fun c b => W0 m c b
/-- After the weight kernel: its arrays at what the write-backs leave, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VA' : (c : Dev nD) → (b : Ref sig .tc) → Buf (Elt F) ((c : Thread nD τ).loc b) := fun c b => W1 m c b
theorem hF0 (c : Dev nD) (w : Fin cfg0.W) : (dat0 (VA m) c).arrAt w cfg0.N = VA' m c (Pipeline.arrRef spec0 w) :=
  (W1_arr m c w).symm
theorem hrest0 (c : Dev nD) : ∀ b, b ∉ Finset.univ.image (Pipeline.arrRef spec0) → VA' m c b = VA m c b :=
  fun b hb => W1_of_ne m c b fun w e => hb (Finset.mem_image.mpr ⟨w, Finset.mem_univ _, e⟩)

/-- After the two reshapes (the matmul kernel's entry). -/
abbrev W2 : Dev nD → Valuation τ sig (Elt F) := fun c => StableHlo.after hostOps1 (W1 m c)
abbrev VB : (c : Dev nD) → (b : Ref sig .tc) → Buf (Elt F) ((c : Thread nD τ).loc b) := fun c b => W2 m c b
/-- After the matmul kernel. -/
def W3 (c : Dev nD) : Valuation τ sig (Elt F) :=
  Pipeline.withArrays spec1 c (W2 m c) fun w => (dat1 (VB m) c).arrAt w cfg1.N
theorem W3_arr (c : Dev nD) (w : Fin cfg1.W) :
    W3 m c (Proc.devRef .tc (Pipeline.arrRef spec1 w)) = (dat1 (VB m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VB' : (c : Dev nD) → (b : Ref sig .tc) → Buf (Elt F) ((c : Thread nD τ).loc b) := fun c b => W3 m c b
theorem hF1 (c : Dev nD) (w : Fin cfg1.W) : (dat1 (VB m) c).arrAt w cfg1.N = VB' m c (Pipeline.arrRef spec1 w) :=
  (W3_arr m c w).symm
theorem hrest1 (c : Dev nD) : ∀ b, b ∉ Finset.univ.image (Pipeline.arrRef spec1) → VB' m c b = VB m c b :=
  fun b hb => W3_of_ne m c b fun w e => hb (Finset.mem_image.mpr ⟨w, Finset.mem_univ _, e⟩)
/-- After the last reshape: the end. -/
abbrev W4 : Dev nD → Valuation τ sig (Elt F) := fun c => StableHlo.after hostOps2 (W3 m c)

/-! ### No item writes an argument array -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := (W1_arr m c 0).trans (((dat0 (VA m) c).arrAt_in 0 rfl _).trans (A_eq0 (VA m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := StableHlo.after_of_writes_sub hostOps1 _ hostOps1_writes (r := main_arg2) (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := StableHlo.after_of_writes_sub hostOps1 _ hostOps1_writes (r := main_arg3) (by decide)
    _ = W0 m c (Proc.devRef .tc main_arg3) := (W1_arr m c 1).trans (((dat0 (VA m) c).arrAt_in 1 rfl _).trans (A_eq0 (VA m) c 1))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := StableHlo.after_of_writes_sub hostOps1 _ hostOps1_writes (r := main_arg4) (by decide)
    _ = W0 m c (Proc.devRef .tc main_arg4) := (W1_arr m c 2).trans (((dat0 (VA m) c).arrAt_in 2 rfl _).trans (A_eq0 (VA m) c 2))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := StableHlo.after_of_writes_sub hostOps1 _ hostOps1_writes (r := main_arg5) (by decide)
    _ = W0 m c (Proc.devRef .tc main_arg5) := (W1_arr m c 3).trans (((dat0 (VA m) c).arrAt_in 3 rfl _).trans (A_eq0 (VA m) c 3))
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := StableHlo.after_of_writes_sub hostOps1 _ hostOps1_writes (r := main_arg6) (by decide)
    _ = W0 m c (Proc.devRef .tc main_arg6) := (W1_arr m c 4).trans (((dat0 (VA m) c).arrAt_in 4 rfl _).trans (A_eq0 (VA m) c 4))
    _ = m ((c : Thread nD τ).loc main_arg6) := rfl

/-! ## The proof data family and the thread state -/

/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register somewhere, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the register somewhere. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The weight kernel's region: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VA' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul kernel's region: entered from every unscoped buffer at `W2`, left at `W3`; the scratch accumulator lives
    inside the region's invariant and is forgotten at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h1.trans (hin1 (VB m) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (VB m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VB' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every unscoped buffer ends at the final named contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run m ρ)

end Cert.KernelIdeal.Fr

end
-- ==== Proof.Spec.lean ====
/-
  The function both programs compute, on the extended reals.

  The merged weight of a low-rank Hadamard adapter is, entry by entry,
      weight (o, i) = W0 (o, i) + ((∑ r, A1 (o, r) · B1 (r, i)) · (∑ r, A2 (o, r) · B2 (r, i))) · ½ ,
  two rank-32 products multiplied entry by entry, scaled by α / rank = ½ and added to the base weight; the layer's
  result is the linear map of that weight with a bias,
      out (b, s, o) = (∑ k, x (b, s, k) · weight (o, k)) + bias o .
  The constant ½ is kept as the word both programs spell it with; no law below needs its value.
-/
import Idealize.ShloMosaic.PureOps.Ideal
import Idealize.ShloMosaic.Lib.ValueIdx

noncomputable section

namespace Cert.Loha

open Idealize.ShloMosaic Idealize.ShloMosaic.ValueIdx
open scoped BigOperators

/-- The scale α / rank = 16 / 32, as the 32-bit word of one half. -/
abbrev half : EReal := Ideal.ofBits .f32 0x3F000000#32

/-- Entry (o, i) of the merged weight: the base weight plus half the entrywise product of the two rank-32 products. -/
def weight (W0 : (⟨2, ![4096, 4096]⟩ : Shape).Idx → EReal)
    (A1 : (⟨2, ![4096, 32]⟩ : Shape).Idx → EReal) (B1 : (⟨2, ![32, 4096]⟩ : Shape).Idx → EReal)
    (A2 : (⟨2, ![4096, 32]⟩ : Shape).Idx → EReal) (B2 : (⟨2, ![32, 4096]⟩ : Shape).Idx → EReal)
    (o i : Fin 4096) : EReal :=
  W0 (ix2 o i) + ((∑ r : Fin 32, A1 (ix2 o r) * B1 (ix2 r i)) * (∑ r : Fin 32, A2 (ix2 o r) * B2 (ix2 r i))) * half

/-- The layer's result: row (b, s) of the input against row o of the merged weight, plus the bias at o. -/
def out (x : (⟨3, ![4, 4096, 4096]⟩ : Shape).Idx → EReal) (W0 : (⟨2, ![4096, 4096]⟩ : Shape).Idx → EReal)
    (bias : (⟨1, ![4096]⟩ : Shape).Idx → EReal)
    (A1 : (⟨2, ![4096, 32]⟩ : Shape).Idx → EReal) (B1 : (⟨2, ![32, 4096]⟩ : Shape).Idx → EReal)
    (A2 : (⟨2, ![4096, 32]⟩ : Shape).Idx → EReal) (B2 : (⟨2, ![32, 4096]⟩ : Shape).Idx → EReal) :
    (⟨3, ![4, 4096, 4096]⟩ : Shape).Idx → EReal :=
  fun j => (∑ k : Fin 4096, x (ix3 (j 0) (j 1) k) * weight W0 A1 B1 A2 B2 (j 2) k) + bias (ix1 (j 2))

end Cert.Loha

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Pay.lean ====
/-
  The two kernels' arithmetic, read at one entry.

  The weight kernel forms, on a 1024 × 1024 tile, the base weight plus the entrywise product of two rank-32 matrix
  products scaled by ½; a change of format is the identity on the extended reals, so the tile's entry (p, q) is
      W0 (p, q) + ((∑ r, A1 (p, r) · B1 (r, q)) · (∑ r, A2 (p, r) · B2 (r, q))) · ½ .
  The matmul kernel clears its accumulator (every entry 0), adds to it at each step the product of a row block of the
  input with a row block of the weight, entry (p, q) gaining ∑ k, x (p, k) · w (q, k), and at the end adds the bias
  row, broadcast over the rows: entry (p, q) gains bias (0, q).
-/
import proofs.«117358_j3753801417310_2_alg».proof.Proof.Gen.KernelIdeal.Skeleton
import proofs.«117358_j3753801417310_2_alg».proof.Proof.Spec
import proofs.«117358_j3753801417310_2_alg».proof.Proof.LibRowsDot
import proofs.«117358_j3753801417310_2_alg».proof.Proof.LibMatDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- Entry (p, q) of the weight kernel's tile: the base weight's entry plus half the product of the two rank-32 sums.
    Each matrix product into the zero accumulator is the row-by-column sum; the format changes are the identity. -/
theorem weight_entry (v0 : Vec Ideal S1024x32 .f32) (v2 : Vec Ideal S32x1024 .f32) (v4 : Vec Ideal S1024x32 .f32) (v6 : Vec Ideal S32x1024 .f32) (v13 : Vec Ideal S1024x1024 .f32) (p q : Fin 1024) :
    k0_pay1 (F := Ideal) v0 v2 v4 v6 v13 (ix2 p q) = v13 (ix2 p q) + ((∑ r : Fin 32, v0 (ix2 p r) * v2 (ix2 r q)) * (∑ r : Fin 32, v4 (ix2 p r) * v6 (ix2 r q))) * Cert.Loha.half := by
  unfold k0_pay1
  rw [truncf_apply, addf_apply, mulf_apply, mulf_apply, broadcast_apply]
  refine congrArg (v13 (ix2 p q) + ·) (congrArg₂ (· * ·) (congrArg₂ (· * ·) ?_ ?_) rfl)
  · exact Cert.Lib.matmul_plain_zero_apply _ none _ _ p q
  · exact Cert.Lib.matmul_plain_zero_apply _ none _ _ p q

/-- The cleared accumulator: every entry is the word of zero, the real number 0. -/
theorem zero_entry (p : Fin 2048) (q : Fin 1024) : k1_pay1 (F := Ideal) (ix2 p q) = 0 := by
  unfold k1_pay1
  rw [shapeCast_self, broadcast_apply]
  exact Ideal.ofBits_zero_f32

/-- One accumulation step at (p, q): the accumulator's entry plus the sum over the 512 contracted positions of
    x (p, k) · w (q, k), row p of the input block against row q of the weight block. The same-shape casts and the format
    change are the identity. -/
theorem acc_entry (v3 : Vec Ideal S2048x512 .f32) (v6 : Vec Ideal S2048x1024 .f32) (v7 : Vec Ideal S1024x512 .bf16) (p : Fin 2048) (q : Fin 1024) :
    k1_pay2 (F := Ideal) v3 v6 v7 (ix2 p q) = v6 (ix2 p q) + ∑ k : Fin 512, v3 (ix2 p k) * v7 (ix2 q k) := by
  unfold k1_pay2
  rw [shapeCast_self, shapeCast_self, shapeCast_self, addf_apply]
  refine congrArg (v6 (ix2 p q) + ·) ?_
  exact Cert.Lib.matmul_rows_zero_apply _ none _ _ p q

/-- The final step at (p, q): the accumulator's entry plus the bias row's entry at column q, the one row broadcast over
    all 2048 rows. -/
theorem bias_entry (v17 : Vec Ideal S2048x1024 .f32) (v18 : Vec Ideal S1x1024 .f32) (p : Fin 2048) (q : Fin 1024) :
    k1_pay3 (F := Ideal) v17 v18 (ix2 p q) = v17 (ix2 p q) + v18 (ix2 (0 : Fin 1) q) := by
  unfold k1_pay3
  rw [addf_apply, shapeCast_self]
  exact congrArg (v17 (ix2 p q) + ·) (broadcastTo_1b_ab_apply v18 _ p q)

end Cert.KernelIdeal.Pay

end
-- ==== Proof.KiWeight.lean ====
/-
  The merged weight array the first kernel leaves.

  Point t of the 4 × 4 grid is block (t / 4, t mod 4). Its five input blocks are read off the launch memory at the block's
  offsets — rows 1024·(t / 4) + p, columns 1024·(t mod 4) + q of the base weight; the same rows of the two left factors;
  the same columns of the two right factors — and the one value the body stores is, entry by entry, the merged weight of
  those rows and columns. Every point writes its block back and the sixteen blocks tile the array, so after the region
  the array holds the merged weight everywhere.
-/
import proofs.«117358_j3753801417310_2_alg».proof.Proof.KiRun
import proofs.«117358_j3753801417310_2_alg».proof.Proof.Pay
import proofs.«117358_j3753801417310_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

theorem hz2 : (![0, 0] : Fin 2 → Nat) = fun _ => 0 := funext fun a => by fin_cases a <;> rfl

/-- The weight kernel's output block is its one store's value of the five input blocks. -/
theorem out0_5_val (x0 : Vec Ideal S1024x1024 .f32) (x1 : Vec Ideal S1024x32 .f32) (x2 : Vec Ideal S32x1024 .f32)
    (x3 : Vec Ideal S1024x32 .f32) (x4 : Vec Ideal S32x1024 .f32) :
    out0_5 (F := Ideal) x0 x1 x2 x3 x4 = k0_pay1 x1 x2 x3 x4 x0 := by
  unfold out0_5
  rw [View.canon_unit_zero hz2]
  simp only [View.ld_unit_zero (S := S1024x1024) hz2, View.ld_unit_zero (S := S1024x32) hz2, View.ld_unit_zero (S := S32x1024) hz2]

/-- The merged weight, as contents of the weight array, from the launch memory. -/
def wtArr (c : Dev nD) : S4096x4096.Idx → EReal := fun i =>
  Cert.Loha.weight (m ((c : Thread nD τ).loc main_arg1)) (m ((c : Thread nD τ).loc main_arg3)) (m ((c : Thread nD τ).loc main_arg4))
    (m ((c : Thread nD τ).loc main_arg5)) (m ((c : Thread nD τ).loc main_arg6)) (i 0) (i 1)

/-- Row p of block t's rows, and column q of its columns, in the whole array. -/
def row0 (t : Fin cfg0.N) (p : Fin 1024) : Fin 4096 :=
  ⟨1024 * (t.val / 4) + p.val, by have := t.isLt; have : cfg0.N = 16 := N_0; have := p.isLt; omega⟩
def col0 (t : Fin cfg0.N) (q : Fin 1024) : Fin 4096 :=
  ⟨1024 * (t.val % 4) + q.val, by have := q.isLt; omega⟩

/-- The printed index maps over the grid: block row t / 4, block column t mod 4. -/
theorem idx0 : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = 0
    ∧ win0_4.index t (0 : Fin 2) = 0 ∧ win0_4.index t (1 : Fin 2) = t.val % 4
    ∧ win0_5.index t (0 : Fin 2) = t.val / 4 ∧ win0_5.index t (1 : Fin 2) = t.val % 4 :=
  (by decide +kernel : ∀ t : Fin grid0.N, _)

/-! ### The input blocks, read off the launch memory -/

theorem blk0_0 (c : Dev nD) (t : Fin cfg0.N) (p q : Fin 1024) :
    iblk0 (VA m) c 0 t (ix2 p q) = m ((c : Thread nD τ).loc main_arg1) (ix2 (row0 t p) (col0 t q)) := by
  obtain ⟨e0, e1, -⟩ := idx0 t
  show VA m c main_arg1 (((cfg0.win 0).blk t).view.emb (ix2 p q)) = _
  refine congrArg _ (funext fun a => Fin.ext ?_)
  match a with
  | ⟨0, _⟩ => show win0_0.index t (0 : Fin 2) * 1024 + 1 * p.val = 1024 * (t.val / 4) + p.val; omega
  | ⟨1, _⟩ => show win0_0.index t (1 : Fin 2) * 1024 + 1 * q.val = 1024 * (t.val % 4) + q.val; omega

theorem blk0_1 (c : Dev nD) (t : Fin cfg0.N) (p : Fin 1024) (r : Fin 32) :
    iblk0 (VA m) c 1 t (ix2 p r) = m ((c : Thread nD τ).loc main_arg3) (ix2 (row0 t p) r) := by
  obtain ⟨-, -, e0, e1, -⟩ := idx0 t
  show VA m c main_arg3 (((cfg0.win 1).blk t).view.emb (ix2 p r)) = _
  refine congrArg _ (funext fun a => Fin.ext ?_)
  match a with
  | ⟨0, _⟩ => show win0_1.index t (0 : Fin 2) * 1024 + 1 * p.val = 1024 * (t.val / 4) + p.val; omega
  | ⟨1, _⟩ => show win0_1.index t (1 : Fin 2) * 32 + 1 * r.val = r.val; omega

theorem blk0_2 (c : Dev nD) (t : Fin cfg0.N) (r : Fin 32) (q : Fin 1024) :
    iblk0 (VA m) c 2 t (ix2 r q) = m ((c : Thread nD τ).loc main_arg4) (ix2 r (col0 t q)) := by
  obtain ⟨-, -, -, -, e0, e1, -⟩ := idx0 t
  show VA m c main_arg4 (((cfg0.win 2).blk t).view.emb (ix2 r q)) = _
  refine congrArg _ (funext fun a => Fin.ext ?_)
  match a with
  | ⟨0, _⟩ => show win0_2.index t (0 : Fin 2) * 32 + 1 * r.val = r.val; omega
  | ⟨1, _⟩ => show win0_2.index t (1 : Fin 2) * 1024 + 1 * q.val = 1024 * (t.val % 4) + q.val; omega

theorem blk0_3 (c : Dev nD) (t : Fin cfg0.N) (p : Fin 1024) (r : Fin 32) :
    iblk0 (VA m) c 3 t (ix2 p r) = m ((c : Thread nD τ).loc main_arg5) (ix2 (row0 t p) r) := by
  obtain ⟨-, -, -, -, -, -, e0, e1, -⟩ := idx0 t
  show VA m c main_arg5 (((cfg0.win 3).blk t).view.emb (ix2 p r)) = _
  refine congrArg _ (funext fun a => Fin.ext ?_)
  match a with
  | ⟨0, _⟩ => show win0_3.index t (0 : Fin 2) * 1024 + 1 * p.val = 1024 * (t.val / 4) + p.val; omega
  | ⟨1, _⟩ => show win0_3.index t (1 : Fin 2) * 32 + 1 * r.val = r.val; omega

theorem blk0_4 (c : Dev nD) (t : Fin cfg0.N) (r : Fin 32) (q : Fin 1024) :
    iblk0 (VA m) c 4 t (ix2 r q) = m ((c : Thread nD τ).loc main_arg6) (ix2 r (col0 t q)) := by
  obtain ⟨-, -, -, -, -, -, -, -, e0, e1, -⟩ := idx0 t
  show VA m c main_arg6 (((cfg0.win 4).blk t).view.emb (ix2 r q)) = _
  refine congrArg _ (funext fun a => Fin.ext ?_)
  match a with
  | ⟨0, _⟩ => show win0_4.index t (0 : Fin 2) * 32 + 1 * r.val = r.val; omega
  | ⟨1, _⟩ => show win0_4.index t (1 : Fin 2) * 1024 + 1 * q.val = 1024 * (t.val % 4) + q.val; omega

/-- Where entry (p, q) of the output block at point t sits in the weight array. -/
theorem emb0_5 (t : Fin cfg0.N) (p q : Fin 1024) :
    ((cfg0.win 5).blk t).view.emb (ix2 p q) = ix2 (row0 t p) (col0 t q) := by
  obtain ⟨-, -, -, -, -, -, -, -, -, -, e0, e1⟩ := idx0 t
  refine funext fun a => Fin.ext ?_
  match a with
  | ⟨0, _⟩ => show win0_5.index t (0 : Fin 2) * 1024 + 1 * p.val = 1024 * (t.val / 4) + p.val; omega
  | ⟨1, _⟩ => show win0_5.index t (1 : Fin 2) * 1024 + 1 * q.val = 1024 * (t.val % 4) + q.val; omega

/-- The stored value at entry (p, q), from blocks that are rows `rw` and columns `cl` of the arrays: the merged weight
    at (rw p, cl q). Stated over variables; the blocks of a point are an instance. -/
theorem weight_block (W0 : (⟨2, ![4096, 4096]⟩ : Shape).Idx → EReal)
    (A1 : (⟨2, ![4096, 32]⟩ : Shape).Idx → EReal) (B1 : (⟨2, ![32, 4096]⟩ : Shape).Idx → EReal)
    (A2 : (⟨2, ![4096, 32]⟩ : Shape).Idx → EReal) (B2 : (⟨2, ![32, 4096]⟩ : Shape).Idx → EReal)
    (rw cl : Fin 1024 → Fin 4096)
    (x0 : Vec Ideal S1024x1024 .f32) (x1 : Vec Ideal S1024x32 .f32) (x2 : Vec Ideal S32x1024 .f32)
    (x3 : Vec Ideal S1024x32 .f32) (x4 : Vec Ideal S32x1024 .f32)
    (h0 : ∀ p q : Fin 1024, x0 (ix2 p q) = W0 (ix2 (rw p) (cl q)))
    (h1 : ∀ (p : Fin 1024) (r : Fin 32), x1 (ix2 p r) = A1 (ix2 (rw p) r))
    (h2 : ∀ (r : Fin 32) (q : Fin 1024), x2 (ix2 r q) = B1 (ix2 r (cl q)))
    (h3 : ∀ (p : Fin 1024) (r : Fin 32), x3 (ix2 p r) = A2 (ix2 (rw p) r))
    (h4 : ∀ (r : Fin 32) (q : Fin 1024), x4 (ix2 r q) = B2 (ix2 r (cl q)))
    (p q : Fin 1024) :
    k0_pay1 (F := Ideal) x1 x2 x3 x4 x0 (ix2 p q) = Cert.Loha.weight W0 A1 B1 A2 B2 (rw p) (cl q) := by
  rw [Cert.KernelIdeal.Pay.weight_entry]
  unfold Cert.Loha.weight
  simp only [h0, h1, h2, h3, h4]

/-- What point t writes back is block t of the merged weight. -/
theorem flushed0_eq (c : Dev nD) (t : Fin cfg0.N) :
    (dat0 (VA m) c).flushed 5 t = ((cfg0.win 5).blk t).view.read (Elt Ideal) (wtArr m c) := by
  show (cfg0.win 5).cut (grid0.coords t) ((dat0 (VA m) c).after 5 t) = _
  rw [after0_5, out0_5_val]
  funext j
  obtain ⟨p, q, rfl⟩ : ∃ (p q : Fin 1024), j = ix2 p q := ⟨j 0, j 1, eq_ix2 j⟩
  show k0_pay1 (F := Ideal) (iblk0 (VA m) c 1 t) (iblk0 (VA m) c 2 t) (iblk0 (VA m) c 3 t) (iblk0 (VA m) c 4 t) (iblk0 (VA m) c 0 t) (ix2 p q)
    = wtArr m c (((cfg0.win 5).blk t).view.emb (ix2 p q))
  rw [emb0_5 t p q]
  exact weight_block _ _ _ _ _ (row0 t) (col0 t) _ _ _ _ _ (blk0_0 m c t) (blk0_1 m c t) (blk0_2 m c t) (blk0_3 m c t) (blk0_4 m c t) p q

/-- An index of the weight array is in point t's block iff each coordinate is in the block's range. -/
theorem mem_blk0 (t : Fin cfg0.N) (i : S4096x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v0).slice (win0_5.rect t)).set ↔ _
  rw [View.set_slice_whole, Rect.mem_set_unit]
  exact Iff.rfl

/-- The sixteen blocks tile the array: entry (o, i) is in the block of point 4·(o / 1024) + i / 1024. -/
theorem cover0 (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  have hN : cfg0.N = 16 := N_0
  let t : Fin cfg0.N := ⟨4 * ((i 0).val / 1024) + (i 1).val / 1024, by omega⟩
  obtain ⟨-, -, -, -, -, -, -, -, -, -, e0, e1⟩ := idx0 t
  have ht : t.val = 4 * ((i 0).val / 1024) + (i 1).val / 1024 := rfl
  refine ⟨t, flush0_5 t, ?_⟩
  rw [mem_blk0]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE WEIGHT ARRAY after the first region: the merged weight, everywhere. -/
theorem final0 (c : Dev nD) : (dat0 (VA m) c).arrAt 5 cfg0.N = wtArr m c :=
  (dat0 (VA m) c).arrAt_eq_of_cover 5 (wtArr m c) (fun t _ => flushed0_eq m c t) (cover0)

end Cert.KernelIdeal.Val

end
-- ==== Proof.KiCases.lean ====
/-
  What each control case of the two kernels leaves, as the body's arithmetic of the blocks it loaded.

  Every load and every store of the two bodies goes through the whole-buffer rectangle (zero offsets, the buffer's own
  sizes): a load through it reads the buffer's contents, one store through it leaves the stored value, and a load after
  such a store reads that value back. So the weight kernel's output block is its one store's value of the five loaded
  blocks. In the matmul kernel, at a first contraction block the scratch is cleared, read back and overwritten by
  zero-plus-product; at the other blocks it is overwritten by accumulator-plus-product; and at a last contraction block
  the freshly stored scratch is read back and scratch-plus-bias is stored over the output block.
-/
import proofs.«117358_j3753801417310_2_alg».proof.Proof.KiReg0
import proofs.«117358_j3753801417310_2_alg».proof.Proof.KiReg1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets, however spelt, are the zero function. -/
theorem offsets_zero2 : (![0, 0] : Fin 2 → Nat) = fun _ => 0 := funext fun a => by fin_cases a <;> rfl

/-- The weight kernel's output block: the one covering store's value of the five blocks, each read whole. -/
theorem out0_5_eq (x0 : Vec F S1024x1024 .f32) (x1 : Vec F S1024x32 .f32) (x2 : Vec F S32x1024 .f32) (x3 : Vec F S1024x32 .f32) (x4 : Vec F S32x1024 .f32) : out0_5 x0 x1 x2 x3 x4 = k0_pay1 x1 x2 x3 x4 x0 := by
  unfold out0_5
  rw [View.canon_unit_zero (S := S1024x1024) offsets_zero2]
  simp only [View.ld_unit_zero (S := S1024x32) offsets_zero2, View.ld_unit_zero (S := S32x1024) offsets_zero2, View.ld_unit_zero (S := S1024x1024) offsets_zero2]

/-- First contraction block: the scratch is cleared, read back (the read returns the cleared block) and overwritten by
    cleared-block-plus-product; the last store covers the scratch, so that is what it holds. -/
theorem sout1_A_eq (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x512 .f32) (x1 : Vec F S1024x512 .bf16) (x2 : Vec F S1x1024 .f32) : sout1_A c i arg3 harg3 arg4 harg4 arg5 harg5 arg6 harg6 arg7 harg7 hc0 hc1 x0 x1 x2 = k1_pay2 x0 (k1_pay1 (F := F)) x1 := by
  unfold sout1_A
  rw [View.read_writes_junk_eq_canon]
  unfold kernelRun1_A
  dsimp only
  sl_unfold_words
  rw [View.canon_cons_unit_zero (S := S2048x1024) offsets_zero2, View.readCov_unit_zero (S := S2048x1024) _ offsets_zero2]
  simp only [View.readAt_eq_ld, harg3.read_unread, harg4.read_unread, View.ld_unit_zero (S := S2048x512) offsets_zero2, View.ld_unit_zero (S := S1024x512) offsets_zero2]

/-- A middle contraction block: the scratch, holding the accumulator, is overwritten by accumulator-plus-product. -/
theorem sout1_B_eq (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x512 .f32) (x1 : Vec F S1024x512 .bf16) (x2 : Vec F S1x1024 .f32) (xs0 : Vec F S2048x1024 .f32) : sout1_B c i arg3 harg3 arg4 harg4 arg5 harg5 arg6 harg6 arg7 harg7 hc0 hc1 x0 x1 x2 xs0 = k1_pay2 x0 xs0 x1 := by
  unfold sout1_B
  rw [View.read_writes_junk_eq_canon]
  unfold kernelRun1_B
  dsimp only
  sl_unfold_words
  rw [View.canon_unit_zero (S := S2048x1024) offsets_zero2]
  simp only [View.readAt_eq_ld, harg3.read_unread, harg4.read_unread, harg7.read_unread, View.ld_unit_zero (S := S2048x512) offsets_zero2, View.ld_unit_zero (S := S1024x512) offsets_zero2, View.ld_unit_zero (S := S2048x1024) offsets_zero2]

/-- The last contraction block leaves the same in the scratch: accumulator-plus-product. -/
theorem sout1_C_eq (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x512 .f32) (x1 : Vec F S1024x512 .bf16) (x2 : Vec F S1x1024 .f32) (xs0 : Vec F S2048x1024 .f32) : sout1_C c i arg3 harg3 arg4 harg4 arg5 harg5 arg6 harg6 arg7 harg7 hc0 hc1 x0 x1 x2 xs0 = k1_pay2 x0 xs0 x1 := by
  unfold sout1_C
  rw [View.read_writes_junk_eq_canon]
  unfold kernelRun1_C
  dsimp only
  sl_unfold_words
  rw [View.canon_unit_zero (S := S2048x1024) offsets_zero2]
  simp only [View.readAt_eq_ld, harg3.read_unread, harg4.read_unread, harg7.read_unread, View.ld_unit_zero (S := S2048x512) offsets_zero2, View.ld_unit_zero (S := S1024x512) offsets_zero2, View.ld_unit_zero (S := S2048x1024) offsets_zero2]

/-- … and in the output block: the scratch just stored is read back whole, and scratch-plus-bias is stored over the
    block. -/
theorem out1_C_3_eq (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x512 .f32) (x1 : Vec F S1024x512 .bf16) (x2 : Vec F S1x1024 .f32) (xs0 : Vec F S2048x1024 .f32) : out1_C_3 c i arg3 harg3 arg4 harg4 arg5 harg5 arg6 harg6 arg7 harg7 hc0 hc1 x0 x1 x2 xs0 = k1_pay3 (k1_pay2 x0 xs0 x1) x2 := by
  unfold out1_C_3
  rw [View.read_writes_junk_eq_canon]
  unfold kernelRun1_C
  dsimp only
  sl_unfold_words
  rw [View.canon_unit_zero (S := S2048x1024) offsets_zero2, View.readCov_unit_zero (S := S2048x1024) _ offsets_zero2]
  simp only [View.readAt_eq_ld, harg3.read_unread, harg4.read_unread, harg5.read_unread, harg7.read_unread, View.ld_unit_zero (S := S2048x512) offsets_zero2, View.ld_unit_zero (S := S1024x512) offsets_zero2, View.ld_unit_zero (S := S2048x1024) offsets_zero2, View.ld_unit_zero (S := S1x1024) offsets_zero2]

end Cert.KernelIdeal.Fr

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.Accum.lean ====
/-
  A sum of 4096 terms taken as eight consecutive blocks of 512, added up in order from zero.

  The matmul kernel adds the eight block products of a row of the input with a row of the weight into an accumulator that
  starts at zero: (((0 + s 0) + s 1) + ⋯) + s 7. On the extended reals addition is associative and commutative with no
  side condition, so the running sum after block n is the sum of the blocks up to n, and after the eighth block it is the
  whole 4096-term sum; only `0 + x = x` and the regrouping of a finite sum are used.
-/
import proofs.«117358_j3753801417310_2_alg».proof.Proof.LibBlockSum
import Mathlib.Data.EReal.Basic
import Mathlib.Algebra.BigOperators.Intervals

noncomputable section

namespace Cert.Loha

open scoped BigOperators

/-- The running sum: zero plus the first block, then each further block added on the right. -/
def partialSum (b : ℕ → EReal) : ℕ → EReal
  | 0 => 0 + b 0
  | k + 1 => partialSum b k + b (k + 1)

/-- The running sum after block n is the sum of blocks 0 … n. -/
theorem partialSum_eq (b : ℕ → EReal) : ∀ n, partialSum b n = ∑ d ∈ Finset.range (n + 1), b d
  | 0 => by simp [partialSum]
  | k + 1 => by rw [partialSum, partialSum_eq b k, Finset.sum_range_succ (n := k + 1)]

/-- After the eighth block the running sum of the 512-term blocks of `f` is the whole sum of `f`. -/
theorem partialSum_blocks (f : Fin 4096 → EReal) (b : ℕ → EReal)
    (hb : ∀ (d : Fin 8), b d.val = ∑ j : Fin 512, f ⟨512 * d.val + j.val, by have := d.isLt; have := j.isLt; omega⟩) :
    partialSum b 7 = ∑ k : Fin 4096, f k := by
  rw [partialSum_eq, Finset.sum_range (n := 8) b]
  have hs := Cert.Lib.sum_blocks (M := EReal) 8 512 (f : Fin (8 * 512) → EReal)
  refine Eq.trans ?_ hs.symm
  refine Finset.sum_congr rfl fun d _ => ?_
  rw [hb d]
  refine Finset.sum_congr rfl fun j _ => ?_
  refine congrArg f (Fin.ext ?_)
  show 512 * d.val + j.val = (finProdFinEquiv (d, j) : Fin (8 * 512)).val
  rw [Cert.Lib.blockIdx_val]; omega

end Cert.Loha

end
-- ==== Proof.KiOut.lean ====
/-
  The result array the matmul kernel leaves.

  Point t of the 8 × 4 × 8 grid is row block t / 32, column block (t / 8) mod 4, contraction block t mod 8. Its input
  blocks are read off the arrays the region finds: rows 2048·(t / 32) + p of the flattened input and rows
  1024·((t / 8) mod 4) + q of the weight, both at columns 512·(t mod 8) + j, and entries 1024·((t / 8) mod 4) + q of the
  bias. By induction on the point the scratch holds, after point t, the running sum of the block products of input row
  and weight row up to block t mod 8; at the last contraction block the body stores that running sum plus the bias, and
  the pipeline writes the block back. The 32 written blocks tile the result array, so it ends holding, at (r, o), the
  eight-block running sum of row r against weight row o, plus the bias at o.
-/
import proofs.«117358_j3753801417310_2_alg».proof.Proof.KiWeight
import proofs.«117358_j3753801417310_2_alg».proof.Proof.KiCases
import proofs.«117358_j3753801417310_2_alg».proof.Proof.Accum

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-! ### The arrays the region finds, as total functions of natural-number coordinates (zero off the array) -/

/-- The flattened input at row r, column k. -/
def Xn (c : Dev nD) (r k : ℕ) : EReal :=
  if h : r < 16384 ∧ k < 4096 then VB m c main_v1 (ix2 (⟨r, h.1⟩ : Fin 16384) (⟨k, h.2⟩ : Fin 4096)) else 0
/-- The weight at row o, column k. -/
def Wn (c : Dev nD) (o k : ℕ) : EReal :=
  if h : o < 4096 ∧ k < 4096 then VB m c main_v0 (ix2 (⟨o, h.1⟩ : Fin 4096) (⟨k, h.2⟩ : Fin 4096)) else 0
/-- The bias at o. -/
def bn (c : Dev nD) (o : ℕ) : EReal :=
  if h : o < 4096 then VB m c main_v2 (ix2 (0 : Fin 1) (⟨o, h⟩ : Fin 4096)) else 0
/-- Contraction block d of input row r against weight row o. -/
def blkSum (c : Dev nD) (r o d : ℕ) : EReal := ∑ j : Fin 512, Xn m c r (512 * d + j.val) * Wn m c o (512 * d + j.val)
/-- The accumulator after contraction block n. -/
def accN (c : Dev nD) (r o : ℕ) : ℕ → EReal := Cert.Loha.partialSum (blkSum m c r o)

/-- What the result array ends holding. -/
def outArr (c : Dev nD) : S16384x4096.Idx → EReal := fun i => accN m c (i 0).val (i 1).val 7 + bn m c (i 1).val

/-- The printed index maps over the grid. -/
theorem idx1 : ∀ t : Fin cfg1.N,
    win1_0.index t (0 : Fin 2) = t.val / 32 ∧ win1_0.index t (1 : Fin 2) = t.val % 8
    ∧ win1_1.index t (0 : Fin 2) = (t.val / 8) % 4 ∧ win1_1.index t (1 : Fin 2) = t.val % 8
    ∧ win1_2.index t (0 : Fin 2) = 0 ∧ win1_2.index t (1 : Fin 2) = (t.val / 8) % 4
    ∧ win1_3.index t (0 : Fin 2) = t.val / 32 ∧ win1_3.index t (1 : Fin 2) = (t.val / 8) % 4 :=
  (by decide +kernel : ∀ t : Fin grid1.N, _)

/-! ### The input blocks -/

theorem blk1_0 (c : Dev nD) (t : Fin cfg1.N) (p : Fin 2048) (j : Fin 512) :
    iblk1 (VB m) c 0 t (ix2 p j) = Xn m c (2048 * (t.val / 32) + p.val) (512 * (t.val % 8) + j.val) := by
  obtain ⟨e0, e1, -⟩ := idx1 t
  have hN : cfg1.N = 256 := N_1
  have hr : 2048 * (t.val / 32) + p.val < 16384 ∧ 512 * (t.val % 8) + j.val < 4096 := by
    have := t.isLt; have := p.isLt; have := j.isLt; omega
  unfold Xn; rw [dif_pos hr]
  show VB m c main_v1 (((cfg1.win 0).blk t).view.emb (ix2 p j)) = _
  refine congrArg _ (funext fun a => Fin.ext ?_)
  match a with
  | ⟨0, _⟩ => show win1_0.index t (0 : Fin 2) * 2048 + 1 * p.val = 2048 * (t.val / 32) + p.val; omega
  | ⟨1, _⟩ => show win1_0.index t (1 : Fin 2) * 512 + 1 * j.val = 512 * (t.val % 8) + j.val; omega

theorem blk1_1 (c : Dev nD) (t : Fin cfg1.N) (q : Fin 1024) (j : Fin 512) :
    iblk1 (VB m) c 1 t (ix2 q j) = Wn m c (1024 * ((t.val / 8) % 4) + q.val) (512 * (t.val % 8) + j.val) := by
  obtain ⟨-, -, e0, e1, -⟩ := idx1 t
  have hr : 1024 * ((t.val / 8) % 4) + q.val < 4096 ∧ 512 * (t.val % 8) + j.val < 4096 := by
    have := q.isLt; have := j.isLt; omega
  unfold Wn; rw [dif_pos hr]
  show VB m c main_v0 (((cfg1.win 1).blk t).view.emb (ix2 q j)) = _
  refine congrArg _ (funext fun a => Fin.ext ?_)
  match a with
  | ⟨0, _⟩ => show win1_1.index t (0 : Fin 2) * 1024 + 1 * q.val = 1024 * ((t.val / 8) % 4) + q.val; omega
  | ⟨1, _⟩ => show win1_1.index t (1 : Fin 2) * 512 + 1 * j.val = 512 * (t.val % 8) + j.val; omega

theorem blk1_2 (c : Dev nD) (t : Fin cfg1.N) (q : Fin 1024) :
    iblk1 (VB m) c 2 t (ix2 (0 : Fin 1) q) = bn m c (1024 * ((t.val / 8) % 4) + q.val) := by
  obtain ⟨-, -, -, -, e0, e1, -⟩ := idx1 t
  have hr : 1024 * ((t.val / 8) % 4) + q.val < 4096 := by have := q.isLt; omega
  unfold bn; rw [dif_pos hr]
  show VB m c main_v2 (((cfg1.win 2).blk t).view.emb (ix2 (0 : Fin 1) q)) = _
  refine congrArg _ (funext fun a => Fin.ext ?_)
  match a with
  | ⟨0, _⟩ => show win1_2.index t (0 : Fin 2) * 1 + 1 * (0 : Fin 1).val = 0; rw [e0]; rfl
  | ⟨1, _⟩ => show win1_2.index t (1 : Fin 2) * 1024 + 1 * q.val = 1024 * ((t.val / 8) % 4) + q.val; omega

/-! ### One accumulation step, over variables -/

/-- The scratch store's value at (p, q): what the scratch held there plus the block product, when the two loaded blocks
    are row r of the input and row o of the weight at contraction block d. -/
theorem scratch_step (c : Dev nD) (r o d : ℕ) (x0 : Vec Ideal S2048x512 .f32) (x1 : Vec Ideal S1024x512 .bf16)
    (prev : Vec Ideal S2048x1024 .f32) (p : Fin 2048) (q : Fin 1024) (pv : EReal)
    (h0 : ∀ j : Fin 512, x0 (ix2 p j) = Xn m c r (512 * d + j.val))
    (h1 : ∀ j : Fin 512, x1 (ix2 q j) = Wn m c o (512 * d + j.val))
    (hp : prev (ix2 p q) = pv) :
    k1_pay2 (F := Ideal) x0 prev x1 (ix2 p q) = pv + blkSum m c r o d := by
  rw [Cert.KernelIdeal.Pay.acc_entry, hp]
  unfold blkSum
  simp only [h0, h1]

/-- What each case leaves in the scratch and the output buffer, as plain values of the loaded blocks. -/
theorem snd_A (c : Dev nD) (t : Fin cfg1.N) (h0 : t.val % 8 = 0) (h1 : ¬t.val % 8 = 7) :
    (outsAt1 (VB m) c t.val t.isLt).2 = k1_pay2 (iblk1 (VB m) c 0 t) (k1_pay1 (F := Ideal)) (iblk1 (VB m) c 1 t) := by
  rw [outsAt1_A (VB m) c t h0 h1]
  dsimp only
  exact sout1_A_eq c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 (VB m) c 0 t) (iblk1 (VB m) c 1 t) (iblk1 (VB m) c 2 t)
theorem snd_B (c : Dev nD) (t : Fin cfg1.N) (h0 : ¬t.val % 8 = 0) (h1 : ¬t.val % 8 = 7) :
    (outsAt1 (VB m) c t.val t.isLt).2
      = k1_pay2 (iblk1 (VB m) c 0 t) (outsAt1 (VB m) c (t.val - 1) (Nat.lt_of_le_of_lt (Nat.sub_le _ _) t.isLt)).2 (iblk1 (VB m) c 1 t) := by
  rw [outsAt1_B (VB m) c t h0 h1]
  dsimp only
  exact sout1_B_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 (VB m) c 0 t) (iblk1 (VB m) c 1 t) (iblk1 (VB m) c 2 t) (outsAt1 (VB m) c (t.val - 1) (Nat.lt_of_le_of_lt (Nat.sub_le _ _) t.isLt)).2
theorem snd_C (c : Dev nD) (t : Fin cfg1.N) (h0 : ¬t.val % 8 = 0) (h1 : t.val % 8 = 7) :
    (outsAt1 (VB m) c t.val t.isLt).2
      = k1_pay2 (iblk1 (VB m) c 0 t) (outsAt1 (VB m) c (t.val - 1) (Nat.lt_of_le_of_lt (Nat.sub_le _ _) t.isLt)).2 (iblk1 (VB m) c 1 t) := by
  rw [outsAt1_C (VB m) c t h0 h1]
  dsimp only
  exact sout1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 (VB m) c 0 t) (iblk1 (VB m) c 1 t) (iblk1 (VB m) c 2 t) (outsAt1 (VB m) c (t.val - 1) (Nat.lt_of_le_of_lt (Nat.sub_le _ _) t.isLt)).2
theorem fst_C (c : Dev nD) (t : Fin cfg1.N) (h0 : ¬t.val % 8 = 0) (h1 : t.val % 8 = 7) :
    (outsAt1 (VB m) c t.val t.isLt).1 = k1_pay3 (outsAt1 (VB m) c t.val t.isLt).2 (iblk1 (VB m) c 2 t) := by
  rw [snd_C m c t h0 h1, outsAt1_C (VB m) c t h0 h1]
  dsimp only
  exact out1_C_3_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 (VB m) c 0 t) (iblk1 (VB m) c 1 t) (iblk1 (VB m) c 2 t) (outsAt1 (VB m) c (t.val - 1) (Nat.lt_of_le_of_lt (Nat.sub_le _ _) t.isLt)).2

/-- THE ACCUMULATOR, POINT BY POINT: after point n the scratch holds at (p, q) the running sum, up to contraction block
    n mod 8, of input row 2048·(n / 32) + p against weight row 1024·((n / 8) mod 4) + q. -/
theorem acc_inv (c : Dev nD) : ∀ (n : ℕ) (h : n < cfg1.N) (p : Fin 2048) (q : Fin 1024),
    (outsAt1 (VB m) c n h).2 (ix2 p q) = accN m c (2048 * (n / 32) + p.val) (1024 * ((n / 8) % 4) + q.val) (n % 8)
  | 0, h, p, q => by
    have e := snd_A m c ⟨0, h⟩ (Nat.zero_mod _) (by show ¬(0 : ℕ) % 8 = 7; decide)
    rw [show (outsAt1 (VB m) c 0 h).2 = _ from e]
    refine (scratch_step m c (2048 * (0 / 32) + p.val) (1024 * ((0 / 8) % 4) + q.val) 0 _ _ _ p q 0
      (fun j => blk1_0 m c ⟨0, h⟩ p j) (fun j => blk1_1 m c ⟨0, h⟩ q j) (Cert.KernelIdeal.Pay.zero_entry p q)).trans ?_
    rfl
  | n + 1, h, p, q => by
    by_cases h0 : (n + 1) % 8 = 0
    · have h1 : ¬(n + 1) % 8 = 7 := by omega
      have e := snd_A m c ⟨n + 1, h⟩ h0 h1
      rw [show (outsAt1 (VB m) c (n + 1) h).2 = _ from e]
      refine (scratch_step m c (2048 * ((n + 1) / 32) + p.val) (1024 * (((n + 1) / 8) % 4) + q.val) ((n + 1) % 8) _ _ _ p q 0
        (fun j => blk1_0 m c ⟨n + 1, h⟩ p j) (fun j => blk1_1 m c ⟨n + 1, h⟩ q j) (Cert.KernelIdeal.Pay.zero_entry p q)).trans ?_
      rw [h0]; rfl
    · have ih := acc_inv c n (Nat.lt_of_succ_lt h) p q
      have er : (n + 1) / 32 = n / 32 := by omega
      have eo : ((n + 1) / 8) % 4 = (n / 8) % 4 := by omega
      have ek : (n + 1) % 8 = n % 8 + 1 := by omega
      have e : (outsAt1 (VB m) c (n + 1) h).2
          = k1_pay2 (iblk1 (VB m) c 0 ⟨n + 1, h⟩) (outsAt1 (VB m) c n (Nat.lt_of_succ_lt h)).2 (iblk1 (VB m) c 1 ⟨n + 1, h⟩) := by
        by_cases h1 : (n + 1) % 8 = 7
        · exact snd_C m c ⟨n + 1, h⟩ h0 h1
        · exact snd_B m c ⟨n + 1, h⟩ h0 h1
      rw [e]
      refine (scratch_step m c (2048 * ((n + 1) / 32) + p.val) (1024 * (((n + 1) / 8) % 4) + q.val) ((n + 1) % 8) _ _ _ p q _
        (fun j => blk1_0 m c ⟨n + 1, h⟩ p j) (fun j => blk1_1 m c ⟨n + 1, h⟩ q j) ih).trans ?_
      rw [er, eo, ek]; rfl

/-- Where entry (p, q) of the output block at point t sits in the result array. -/
theorem emb1_3 (t : Fin cfg1.N) (p : Fin 2048) (q : Fin 1024) :
    ((cfg1.win 3).blk t).view.emb (ix2 p q)
      = ix2 (⟨2048 * (t.val / 32) + p.val, by have := t.isLt; have : cfg1.N = 256 := N_1; have := p.isLt; omega⟩ : Fin 16384)
          (⟨1024 * ((t.val / 8) % 4) + q.val, by have := q.isLt; omega⟩ : Fin 4096) := by
  obtain ⟨-, -, -, -, -, -, e0, e1⟩ := idx1 t
  refine funext fun a => Fin.ext ?_
  match a with
  | ⟨0, _⟩ => show win1_3.index t (0 : Fin 2) * 2048 + 1 * p.val = 2048 * (t.val / 32) + p.val; omega
  | ⟨1, _⟩ => show win1_3.index t (1 : Fin 2) * 1024 + 1 * q.val = 1024 * ((t.val / 8) % 4) + q.val; omega

/-- What a writing point (the last contraction block of its pair) writes back is its block of `outArr`. -/
theorem flushed1_eq (c : Dev nD) (t : Fin cfg1.N) (hf : (cfg1.win 3).flush t = true) :
    (dat1 (VB m) c).flushed 3 t = ((cfg1.win 3).blk t).view.read (Elt Ideal) (outArr m c) := by
  have h1 : t.val % 8 = 7 := (flush1_3 t).mp hf
  have h0 : ¬t.val % 8 = 0 := by omega
  show (cfg1.win 3).cut (grid1.coords t) ((dat1 (VB m) c).after 3 t) = _
  rw [after1_3, fst_C m c t h0 h1]
  funext j
  obtain ⟨p, q, rfl⟩ : ∃ (p : Fin 2048) (q : Fin 1024), j = ix2 p q := ⟨j 0, j 1, eq_ix2 j⟩
  show k1_pay3 (F := Ideal) (outsAt1 (VB m) c t.val t.isLt).2 (iblk1 (VB m) c 2 t) (ix2 p q)
    = outArr m c (((cfg1.win 3).blk t).view.emb (ix2 p q))
  rw [emb1_3 t p q, Cert.KernelIdeal.Pay.bias_entry, acc_inv m c t.val t.isLt p q, blk1_2 m c t q, h1]
  rfl

theorem mem_blk1 (t : Fin cfg1.N) (i : S16384x4096.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v3).slice (win1_3.rect t)).set ↔ _
  rw [View.set_slice_whole, Rect.mem_set_unit]
  exact Iff.rfl

/-- The 32 written blocks tile the result array: entry (r, o) is in the block written at point
    32·(r / 2048) + 8·(o / 1024) + 7. -/
theorem cover1 (i : S16384x4096.Idx) : ∃ t : Fin cfg1.N, (cfg1.win 3).flush t = true ∧ i ∈ ((cfg1.win 3).blk t).view.set := by
  have hi0 : (i 0).val < 16384 := (i 0).isLt
  have hi1 : (i 1).val < 4096 := (i 1).isLt
  have hN : cfg1.N = 256 := N_1
  let t : Fin cfg1.N := ⟨32 * ((i 0).val / 2048) + 8 * ((i 1).val / 1024) + 7, by omega⟩
  obtain ⟨-, -, -, -, -, -, e0, e1⟩ := idx1 t
  have ht : t.val = 32 * ((i 0).val / 2048) + 8 * ((i 1).val / 1024) + 7 := rfl
  refine ⟨t, (flush1_3 t).mpr (by omega), ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

/-- THE RESULT ARRAY after the second region. -/
theorem final1 (c : Dev nD) : (dat1 (VB m) c).arrAt 3 cfg1.N = outArr m c :=
  (dat1 (VB m) c).arrAt_eq_of_cover 3 (outArr m c) (fun t hf => flushed1_eq m c t hf) (cover1)

end Cert.KernelIdeal.Val

end
-- ==== Proof.KiFinal.lean ====
/-
  The program's result, from the launch memory.

  The second region finds the merged weight where the first left it, the input flattened to [16384, 4096] (row
  4096·b + s is position (b, s)) and the bias as one row. Its result array holds at (r, o) the eight-block running sum of
  input row r against weight row o plus the bias at o; the running sum is the plain 4096-term sum, and the last reshape
  reads row 4096·b + s back as position (b, s). So the result is the layer's function of the seven argument arrays.
-/
import proofs.«117358_j3753801417310_2_alg».proof.Proof.KiOut
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-! ### The arrays the second region finds -/

theorem W1_arg0 (c : Dev nD) : W1 m c (Proc.devRef .tc main_arg0) = m ((c : Thread nD τ).loc main_arg0) :=
  (W1_of_ne m c main_arg0 (by decide)).trans rfl
theorem W1_arg2 (c : Dev nD) : W1 m c (Proc.devRef .tc main_arg2) = m ((c : Thread nD τ).loc main_arg2) :=
  (W1_of_ne m c main_arg2 (by decide)).trans rfl

/-- The weight: what the first region left. -/
theorem VB_v0 (c : Dev nD) : VB m c main_v0 = wtArr m c :=
  (StableHlo.after_of_writes_sub hostOps1 _ hostOps1_writes (r := main_v0) (by decide)).trans ((W1_arr m c 5).trans (final0 m c))

/-- The flattened input. -/
theorem VB_v1 (c : Dev nD) :
    VB m c main_v1 = shapeCast S16384x4096 (m ((c : Thread nD τ).loc main_arg0)) shapeCasts_S4x4096x4096_S16384x4096 := by
  rw [← W1_arg0 m c]
  show StableHlo.after hostOps1 (W1 m c) (Proc.devRef .tc main_v1) = _
  after_results
  try rfl

/-- The bias as a row. -/
theorem VB_v2 (c : Dev nD) :
    VB m c main_v2 = shapeCast S1x4096 (m ((c : Thread nD τ).loc main_arg2)) shapeCasts_S4096_S1x4096 := by
  rw [← W1_arg2 m c]
  show StableHlo.after hostOps1 (W1 m c) (Proc.devRef .tc main_v2) = _
  after_results
  try rfl

/-- Row 4096·b + s of the flattened input is position (b, s) of the input. -/
theorem Xn_bs (c : Dev nD) (b : Fin 4) (s : Fin 4096) (k : ℕ) (hk : k < 4096) :
    Xn m c (4096 * b.val + s.val) k = m ((c : Thread nD τ).loc main_arg0) (ix3 b s (⟨k, hk⟩ : Fin 4096)) := by
  have hr : 4096 * b.val + s.val < 16384 ∧ k < 4096 := ⟨by have := b.isLt; have := s.isLt; omega, hk⟩
  unfold Xn; rw [dif_pos hr, VB_v1]
  refine shapeCast_apply _ _ _ _ ?_
  show (S4x4096x4096.rowMajor (ix3 b s (⟨k, hk⟩ : Fin 4096))).val = (S16384x4096.rowMajor (ix2 (⟨4096 * b.val + s.val, hr.1⟩ : Fin 16384) (⟨k, hr.2⟩ : Fin 4096))).val
  rw [Shape.rowMajor_val_three, Shape.rowMajor_val_two]
  show (b.val * 4096 + s.val) * 4096 + k = (4096 * b.val + s.val) * 4096 + k
  omega

theorem Wn_ok (c : Dev nD) (o : Fin 4096) (k : ℕ) (hk : k < 4096) :
    Wn m c o.val k = Cert.Loha.weight (m ((c : Thread nD τ).loc main_arg1)) (m ((c : Thread nD τ).loc main_arg3)) (m ((c : Thread nD τ).loc main_arg4)) (m ((c : Thread nD τ).loc main_arg5)) (m ((c : Thread nD τ).loc main_arg6)) o (⟨k, hk⟩ : Fin 4096) := by
  unfold Wn; rw [dif_pos ⟨o.isLt, hk⟩, VB_v0]
  rfl

theorem bn_ok (c : Dev nD) (o : Fin 4096) : bn m c o.val = m ((c : Thread nD τ).loc main_arg2) (ix1 o) := by
  unfold bn; rw [dif_pos o.isLt, VB_v2]
  refine shapeCast_apply _ _ _ _ ?_
  show (S4096.rowMajor (ix1 o)).val = (S1x4096.rowMajor (ix2 (0 : Fin 1) (⟨o.val, o.isLt⟩ : Fin 4096))).val
  rw [Shape.rowMajor_val_one, Shape.rowMajor_val_two]
  show o.val = 0 * 4096 + o.val
  omega

/-- The last reshape of the second region's result array. -/
theorem W4_v4 (c : Dev nD) :
    W4 m c (Proc.devRef .tc main_v4) = shapeCast S4x4096x4096 (outArr m c) shapeCasts_S16384x4096_S4x4096x4096 := by
  rw [← show W3 m c (Proc.devRef .tc main_v3) = outArr m c from (W3_arr m c 3).trans (final1 m c)]
  show StableHlo.after hostOps2 (W3 m c) (Proc.devRef .tc main_v4) = _
  after_results
  try rfl

/-- The result array's entry at row 4096·b + s, column o, from the three arrays read as the input, the weight and the
    bias: the plain 4096-term sum plus the bias. Stated over variables. -/
theorem result_at (c : Dev nD) (x : (⟨3, ![4, 4096, 4096]⟩ : Shape).Idx → EReal) (bias : (⟨1, ![4096]⟩ : Shape).Idx → EReal)
    (wt : Fin 4096 → Fin 4096 → EReal) (b : Fin 4) (s : Fin 4096) (o : Fin 4096)
    (hx : ∀ (k : ℕ) (hk : k < 4096), Xn m c (4096 * b.val + s.val) k = x (ix3 b s (⟨k, hk⟩ : Fin 4096)))
    (hw : ∀ (k : ℕ) (hk : k < 4096), Wn m c o.val k = wt o (⟨k, hk⟩ : Fin 4096))
    (hb : bn m c o.val = bias (ix1 o)) :
    accN m c (4096 * b.val + s.val) o.val 7 + bn m c o.val = (∑ k : Fin 4096, x (ix3 b s k) * wt o k) + bias (ix1 o) := by
  rw [hb]
  refine congrArg (· + _) ?_
  refine Cert.Loha.partialSum_blocks (fun k : Fin 4096 => x (ix3 b s k) * wt o k) _ ?_
  intro d
  unfold blkSum
  refine Finset.sum_congr rfl fun j _ => ?_
  have hk : 512 * d.val + j.val < 4096 := by have := d.isLt; have := j.isLt; omega
  rw [hx _ hk, hw _ hk]

/-- THE RESULT: the program's result array ends holding the layer's function of the argument arrays. -/
theorem result_eq (c : Dev nD) :
    W4 m c (Proc.devRef .tc main_v4) = Cert.Loha.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W4_v4]
  funext j
  obtain ⟨b, s, o, rfl⟩ : ∃ (b : Fin 4) (s : Fin 4096) (o : Fin 4096), j = ix3 b s o := ⟨j 0, j 1, j 2, eq_ix3 j⟩
  have hr : 4096 * b.val + s.val < 16384 := by have := b.isLt; have := s.isLt; omega
  rw [shapeCast_apply (outArr m c) shapeCasts_S16384x4096_S4x4096x4096 (ix3 b s o) (ix2 (⟨4096 * b.val + s.val, hr⟩ : Fin 16384) o) (by
    rw [Shape.rowMajor_val_two, Shape.rowMajor_val_three]
    show (4096 * b.val + s.val) * 4096 + o.val = (b.val * 4096 + s.val) * 4096 + o.val
    omega)]
  exact result_at m c (m ((c : Thread nD τ).loc main_arg0)) (m ((c : Thread nD τ).loc main_arg2)) (Cert.Loha.weight (m ((c : Thread nD τ).loc main_arg1)) (m ((c : Thread nD τ).loc main_arg3)) (m ((c : Thread nD τ).loc main_arg4)) (m ((c : Thread nD τ).loc main_arg5)) (m ((c : Thread nD τ).loc main_arg6))) b s o
    (fun k hk => Xn_bs m c b s k hk) (fun k hk => Wn_ok m c o k hk) (bn_ok m c o)

end Cert.KernelIdeal.Val

end
-- ==== Proof.RefValue.lean ====
/-
  The reference, read at an index, is the layer's function.

  The reference forms diff = (A1 · B1) ∘ (A2 · B2) · ½ entry by entry, then weight = W0 + 1 · diff, then
  out = x · weightᵀ + bias. On the extended reals 1 · y = y, so the weight's entry (o, i) is
      W0 (o, i) + ((∑ r, A1 (o, r) · B1 (r, i)) · (∑ r, A2 (o, r) · B2 (r, i))) · ½ ,
  and the result's entry (b, s, o) is (∑ k, x (b, s, k) · weight (o, k)) + bias o: the specification, term by term.
  The word of ½ is the same on both sides and is never evaluated; only the word of 1 is.
-/
import proofs.«117358_j3753801417310_2_alg».proof.Proof.Spec
import proofs.«117358_j3753801417310_2_alg».proof.Proof.Gen.ReferenceIdeal.Read

noncomputable section

namespace Cert.Loha

open Idealize.ShloMosaic Idealize.ShloMosaic.ValueIdx
open Cert.ReferenceIdeal Cert.ReferenceIdeal.Read
open scoped BigOperators

/-- The 32-bit word 0x3F800000 encodes the real number one. -/
theorem ofBits_one_f32 : Ideal.ofBits .f32 0x3F800000#32 = 1 := by
  simp [Ideal.ofBits, Ideal.ieee, -EReal.coe_mul]; norm_num

/-- The first rank-32 product reads row o of its left factor at (o, r) -/
theorem lidx_v0 (o i : Fin 4096) (r : Fin 32) : lidx_main_v0 (ix2 o i) r = ix2 o r :=
  funext fun a => by match a with | ⟨0, _⟩ => rfl | ⟨1, _⟩ => rfl
/-- and column i of its right factor at (r, i). -/
theorem ridx_v0 (o i : Fin 4096) (r : Fin 32) : ridx_main_v0 (ix2 o i) r = ix2 r i :=
  funext fun a => by match a with | ⟨0, _⟩ => rfl | ⟨1, _⟩ => rfl
/-- The second rank-32 product likewise: the left factor at (o, r) -/
theorem lidx_v1 (o i : Fin 4096) (r : Fin 32) : lidx_main_v1 (ix2 o i) r = ix2 o r :=
  funext fun a => by match a with | ⟨0, _⟩ => rfl | ⟨1, _⟩ => rfl
/-- and the right factor at (r, i). -/
theorem ridx_v1 (o i : Fin 4096) (r : Fin 32) : ridx_main_v1 (ix2 o i) r = ix2 r i :=
  funext fun a => by match a with | ⟨0, _⟩ => rfl | ⟨1, _⟩ => rfl

/-- The reference's merged weight at (o, i): the unit factor drops by 1 · y = y, the rest is the specification's entry. -/
theorem ref_weight (x1 : (⟨S4096x4096, .f32⟩ : BufTy).Contents (Elt Ideal)) (x3 : (⟨S4096x32, .f32⟩ : BufTy).Contents (Elt Ideal))
    (x4 : (⟨S32x4096, .f32⟩ : BufTy).Contents (Elt Ideal)) (x5 : (⟨S4096x32, .f32⟩ : BufTy).Contents (Elt Ideal))
    (x6 : (⟨S32x4096, .f32⟩ : BufTy).Contents (Elt Ideal)) (o i : Fin 4096) :
    val_main_v7 (F := Ideal) x1 x3 x4 x5 x6 (ix2 o i) = weight x1 x3 x4 x5 x6 o i := by
  rw [val_main_v7_apply, val_main_v6_apply, val_main_v5_apply, val_main_cst_0_apply, val_main_v4_apply, val_main_v3_apply,
    val_main_cst_apply, val_main_v2_apply, val_main_v0_apply, val_main_v1_apply]
  simp only [lidx_v0, ridx_v0, lidx_v1, ridx_v1, Ideal.mulf_def, Ideal.addf_def, Ideal.ofBits_def]
  rw [ofBits_one_f32, one_mul]
  rfl

/-- The linear map reads the input at (b, s, k) -/
theorem lidx_v8 (b : Fin 4) (s o k : Fin 4096) : lidx_main_v8 (ix3 b s o) k = ix3 b s k :=
  funext fun a => by match a with | ⟨0, _⟩ => rfl | ⟨1, _⟩ => rfl | ⟨2, _⟩ => rfl
/-- and the merged weight at (o, k): row o of the weight, the transposed product. -/
theorem ridx_v8 (b : Fin 4) (s o k : Fin 4096) : ridx_main_v8 (ix3 b s o) k = ix2 o k :=
  funext fun a => by match a with | ⟨0, _⟩ => rfl | ⟨1, _⟩ => rfl
/-- The bias, broadcast over the batch and sequence axes, is read at o. -/
theorem idx_v9_v10 (b : Fin 4) (s o : Fin 4096) : idx_main_v9 (idx_main_v10 (ix3 b s o)) = ix1 o :=
  funext fun a => by match a with | ⟨0, _⟩ => rfl

/-- The reference computes the layer's function: at (b, s, o), the sum over k of x (b, s, k) · weight (o, k), plus bias o. -/
theorem ref_eq (x0 : (⟨Cert.ReferenceIdeal.S4x4096x4096, .f32⟩ : BufTy).Contents (Elt Ideal)) (x1 : (⟨Cert.ReferenceIdeal.S4096x4096, .f32⟩ : BufTy).Contents (Elt Ideal)) (x2 : (⟨Cert.ReferenceIdeal.S4096, .f32⟩ : BufTy).Contents (Elt Ideal)) (x3 : (⟨Cert.ReferenceIdeal.S4096x32, .f32⟩ : BufTy).Contents (Elt Ideal)) (x4 : (⟨Cert.ReferenceIdeal.S32x4096, .f32⟩ : BufTy).Contents (Elt Ideal)) (x5 : (⟨Cert.ReferenceIdeal.S4096x32, .f32⟩ : BufTy).Contents (Elt Ideal)) (x6 : (⟨Cert.ReferenceIdeal.S32x4096, .f32⟩ : BufTy).Contents (Elt Ideal)) :
    Cert.ReferenceIdeal.Read.val_main_v11 (F := Ideal) x0 x1 x2 x3 x4 x5 x6 = Cert.Loha.out x0 x1 x2 x3 x4 x5 x6 := by
  funext j
  obtain ⟨b, s, o, rfl⟩ : ∃ (b : Fin 4) (s : Fin 4096) (o : Fin 4096), j = ix3 b s o := ⟨j 0, j 1, j 2, eq_ix3 j⟩
  rw [val_main_v11_apply, val_main_v8_apply, val_main_v10_apply, val_main_v9_apply, idx_v9_v10, Ideal.addf_def]
  refine congrArg (· + x2 (ix1 o)) (Finset.sum_congr rfl fun k _ => ?_)
  rw [lidx_v8, ridx_v8, ref_weight]

end Cert.Loha

end
-- ==== Proof.lean ====
/-
  Low-rank Hadamard adapter: weight reconstruction, then a linear layer with bias — a Pallas program of two kernels
  against its jnp reference, equal on the extended reals.

  The kernel program builds the merged weight W0 + ½·(A1·B1)∘(A2·B2) block by block in a first kernel, flattens the
  input, and in a second kernel accumulates, for each block of rows and columns, the eight 512-wide block products of
  input rows with weight rows into a scratch that starts at zero, adding the bias after the eighth. The reference builds
  the same weight (with a multiplication by one), takes one 4096-wide contraction and adds the bias. On the extended
  reals the format changes are the identity, 1·y = y, 0 + x = x, and a sum of 4096 terms is the sum of its eight blocks
  in order: nothing else is needed, and no finiteness of the inputs.

  The frames: each program runs to the end from any memory, faults nowhere and leaves its seven argument arrays as
  launched — for the kernel program (read on words and on extended reals alike) by its run through the two regions
  (Proof/KRun.lean, Proof/KiRun.lean), for the reference by its run read back. The ideal pass rewrote nothing.
  The values: the kernel program's result array ends at the layer's function of the arguments (Proof/KiFinal.lean), and
  so does the reference's (Proof/RefValue.lean).
-/
import proofs.«117358_j3753801417310_2_alg».proof.Defs
import proofs.«117358_j3753801417310_2_alg».proof.Proof.Gen.Kernel
import proofs.«117358_j3753801417310_2_alg».proof.Proof.Gen.KernelIdeal
import proofs.«117358_j3753801417310_2_alg».proof.Proof.Gen.ReferenceIdeal
import proofs.«117358_j3753801417310_2_alg».proof.Proof.Gen.ReferenceIdeal.Run
import proofs.«117358_j3753801417310_2_alg».proof.Proof.Gen.ReferenceIdeal.Read
import proofs.«117358_j3753801417310_2_alg».proof.Proof.Gen.Pre_finite_inputs
import proofs.«117358_j3753801417310_2_alg».proof.Proof.KRun
import proofs.«117358_j3753801417310_2_alg».proof.Proof.KiFinal
import proofs.«117358_j3753801417310_2_alg».proof.Proof.RefValue

noncomputable section

namespace Cert.Proof

open Idealize.ShloMosaic Idealize.ShloMosaic.TcCoe Idealize.SL.Sem

theorem frame_p : Cert.frame_Kernel := fun m ρ _ => Cert.Kernel.Fr.frame m ρ
theorem frame_pi : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the layer's function of the (agreeing) argument arrays in their result array. -/
theorem algebraic : Cert.algebraic_KernelIdeal_ReferenceIdeal := by
  intro m ρ m' ρ' _ hagree
  refine ⟨fun c => Cert.Loha.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Fr.run (F := Ideal) m ρ)
    exact ⟨(h c _ (Cert.KernelIdeal.Fr.mem_uc Cert.KernelIdeal.main_v4 (by decide))).trans (Cert.KernelIdeal.Val.result_eq m c),
      (h c _ (Cert.KernelIdeal.Fr.mem_uc Cert.KernelIdeal.main_arg0 (by decide))).trans (Cert.KernelIdeal.Fr.W4_main_arg0 m c),
      (h c _ (Cert.KernelIdeal.Fr.mem_uc Cert.KernelIdeal.main_arg1 (by decide))).trans (Cert.KernelIdeal.Fr.W4_main_arg1 m c),
      (h c _ (Cert.KernelIdeal.Fr.mem_uc Cert.KernelIdeal.main_arg2 (by decide))).trans (Cert.KernelIdeal.Fr.W4_main_arg2 m c),
      (h c _ (Cert.KernelIdeal.Fr.mem_uc Cert.KernelIdeal.main_arg3 (by decide))).trans (Cert.KernelIdeal.Fr.W4_main_arg3 m c),
      (h c _ (Cert.KernelIdeal.Fr.mem_uc Cert.KernelIdeal.main_arg4 (by decide))).trans (Cert.KernelIdeal.Fr.W4_main_arg4 m c),
      (h c _ (Cert.KernelIdeal.Fr.mem_uc Cert.KernelIdeal.main_arg5 (by decide))).trans (Cert.KernelIdeal.Fr.W4_main_arg5 m c),
      (h c _ (Cert.KernelIdeal.Fr.mem_uc Cert.KernelIdeal.main_arg6 (by decide))).trans (Cert.KernelIdeal.Fr.W4_main_arg6 m c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v11_eq, Cert.Loha.ref_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
